-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S10000x128 : Shape := ⟨2, ![10000, 128]⟩
abbrev S10000x1 : Shape := ⟨2, ![10000, 1]⟩
abbrev S10000x64 : Shape := ⟨2, ![10000, 64]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 57
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S1x64, .f32⟩
  | .hbm, ⟨56, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x64, .f32⟩
  | .local _ .vmem, ⟨10, _⟩ => ⟨S128x64, .f32⟩
  | .local _ .vmem, ⟨11, _⟩ => ⟨S10000x128, .f32⟩
  | .local _ .vmem, ⟨12, _⟩ => ⟨S10000x128, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x128_S10000x64_0_0 : ∀ a, (![0, 0] : Fin 2 → Nat) a + S10000x64.size a ≤ S10000x128.size a
  h_S10000x64 : 0 < S10000x64.numel
  inb_S10000x128_S10000x64_0_64 : ∀ a, (![0, 64] : Fin 2 → Nat) a + S10000x64.size a ≤ S10000x128.size a
  slices_S50000x128_S50000x64_0_0 : S50000x128.Slices ![0, 0] S50000x64
  slices_S50000x128_S50000x64_0_64 : S50000x128.Slices ![0, 64] S50000x64
  bcast_S_S50000x64 : S_.BroadcastsInDim S50000x64 (![] : Fin 0 → Fin S50000x64.rank)
  shapeCasts_S64_S1x64 : S64.ShapeCasts S1x64
  inb_S10000x64_S10000x64_0_0 : ∀ a, (![0, 0] : Fin 2 → Nat) a + S10000x64.size a ≤ S10000x64.size a
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x128.size a ≤ S50000x128.size a
  hwx0_8 : ∀ i : grid0.Coords, EltTy.bits .f32 = 32 ∨ (Rect.block (s := S50000x128) S10000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S10000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v36) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result named.

  @main is two pipelined regions among two stretches of host operations. The generated frame folds the buffer
  contents through the four segments (`Gen.W0 … Gen.W4`) and keeps, of the last thread state, only that the argument
  arrays are unchanged. The same launch, read against the final state at the result buffer as well, says that the
  result array ends at `Gen.W4` of its reference: what the second region's write-backs leave.
-/
import proofs.«108149_j1090921693773_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelBody.lean ====
/-
  The two kernel bodies at an index, on the extended reals.

  The first body takes a block of 10000 rows: the neighbourhood sums `s`, the reciprocal degrees `v` (a column), the
  node features `x`, and the whole weight matrices and bias row. Its hidden value at `(r, k')` is
  `max ((∑ k, (s[r,k] · v[r,0]) · W1l[k,k'] + ∑ k, x[r,k] · W1r[k,k']) + b1[0,k']) 0`, and it stores the two projections
  `∑ k', h[r,k'] · W[k',j]` side by side. The second body is pointwise: `(s[r,j] · v[r,0] + p[r,j]) + b2[0,j]`.
  A `tpu.matmul` into a zero accumulator is the plain sum over the one contracted axis.
-/
import proofs.«108149_j1090921693773_2_alg».proof.Proof.Gen.KernelIdeal.Skeleton
import proofs.«108149_j1090921693773_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx

/-! ## The two matrix products -/

theorem mm128_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mm128_lhs1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem mm128_rhs0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem mm128_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block of rows times a weight matrix, accumulated from zero, at `(r, c)`: the sum over the 128 inner coordinates. -/
theorem mm128_apply (A : FVec Ideal S10000x128 .f32) (B : FVec Ideal S128x128 .f32) (r : Fin 10000) (c : Fin 128) :
    matmul dot_S10000x128_S128x128_S10000x128_1_0_0_1_n_n none A B (constant S10000x128 .f32 0x00000000#32) (ix2 r c) = ∑ k : Fin 128, A (ix2 r k) * B (ix2 k c) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r c) ((contrEquiv1 dot_S10000x128_S128x128_S10000x128_1_0_0_1_n_n 128 rfl rfl).symm k) = ix2 r k := funext fun a => Fin.ext (by
    match a with
    | ⟨0, _⟩ => exact mm128_lhs0 _ _
    | ⟨1, _⟩ => exact (mm128_lhs1 _ _).trans hk)
  have er : dot_S10000x128_S128x128_S10000x128_1_0_0_1_n_n.rhsIdx (ix2 r c) ((contrEquiv1 dot_S10000x128_S128x128_S10000x128_1_0_0_1_n_n 128 rfl rfl).symm k) = ix2 k c := funext fun a => Fin.ext (by
    match a with
    | ⟨0, _⟩ => exact (mm128_rhs0 _ _).trans hk
    | ⟨1, _⟩ => exact mm128_rhs1 _ _)
  rw [el, er]

theorem mm64_lhs0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mm64_lhs1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem mm64_rhs0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem mm64_rhs1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A block of rows times a weight matrix, accumulated from zero, at `(r, c)`: the sum over the 128 inner coordinates. -/
theorem mm64_apply (A : FVec Ideal S10000x128 .f32) (B : FVec Ideal S128x64 .f32) (r : Fin 10000) (c : Fin 64) :
    matmul dot_S10000x128_S128x64_S10000x64_1_0_0_1_n_n none A B (constant S10000x64 .f32 0x00000000#32) (ix2 r c) = ∑ k : Fin 128, A (ix2 r k) * B (ix2 k c) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r c) ((contrEquiv1 dot_S10000x128_S128x64_S10000x64_1_0_0_1_n_n 128 rfl rfl).symm k) = ix2 r k := funext fun a => Fin.ext (by
    match a with
    | ⟨0, _⟩ => exact mm64_lhs0 _ _
    | ⟨1, _⟩ => exact (mm64_lhs1 _ _).trans hk)
  have er : dot_S10000x128_S128x64_S10000x64_1_0_0_1_n_n.rhsIdx (ix2 r c) ((contrEquiv1 dot_S10000x128_S128x64_S10000x64_1_0_0_1_n_n 128 rfl rfl).symm k) = ix2 k c := funext fun a => Fin.ext (by
    match a with
    | ⟨0, _⟩ => exact (mm64_rhs0 _ _).trans hk
    | ⟨1, _⟩ => exact mm64_rhs1 _ _)
  rw [el, er]

/-! ## The first body -/

/-- The hidden block at `(r, k')`. -/
theorem pay1_apply (v0 : Vec Ideal S10000x128 .f32) (v2 : Vec Ideal S10000x1 .f32) (v6 : Vec Ideal S10000x128 .f32)
    (v7 v9 : Vec Ideal S128x128 .f32) (v12 : Vec Ideal S1x128 .f32) (r : Fin 10000) (k' : Fin 128) :
    k0_pay1 v0 v2 v6 v7 v9 v12 (ix2 r k')
      = max (((∑ k : Fin 128, (v0 (ix2 r k) * v2 (ix2 r 0)) * v7 (ix2 k k'))
          + ∑ k : Fin 128, v6 (ix2 r k) * v9 (ix2 k k')) + v12 (ix2 0 k')) 0 := by
  have h1 : ∀ k : Fin 128, (mulf (shapeCast S10000x128 v0 shapeCasts_S10000x128_S10000x128)
      (broadcastTo S10000x128 (shapeCast S10000x1 v2 shapeCasts_S10000x1_S10000x1) broadcasts_S10000x1_S10000x128)
        : FVec Ideal S10000x128 .f32) (ix2 r k) = v0 (ix2 r k) * v2 (ix2 r 0) := fun k => by
    rw [mulf_apply, shapeCast_self, Cert.LibKeepdims.broadcastTo_a1_ab_apply, shapeCast_self]
  have h2 : (broadcastTo S10000x128 (shapeCast S1x128 v12 shapeCasts_S1x128_S1x128) broadcasts_S1x128_S10000x128
      : FVec Ideal S10000x128 .f32) (ix2 r k') = v12 (ix2 0 k') := by
    rw [broadcastTo_1b_ab_apply, shapeCast_self]
  unfold k0_pay1
  show max ((matmul dot_S10000x128_S128x128_S10000x128_1_0_0_1_n_n none _ v7 (constant S10000x128 .f32 0x00000000#32) (ix2 r k')
      + matmul dot_S10000x128_S128x128_S10000x128_1_0_0_1_n_n none v6 v9 (constant S10000x128 .f32 0x00000000#32) (ix2 r k')) + _) (Ideal.ofBits .f32 0x00000000#32) = _
  rw [mm128_apply, mm128_apply, h2, Ideal.ofBits_zero_f32]
  simp only [h1]

/-- A projected block at `(r, j)`. -/
theorem pay2_apply (v0 : Vec Ideal S10000x128 .f32) (v2 : Vec Ideal S10000x1 .f32) (v6 : Vec Ideal S10000x128 .f32)
    (v7 v9 : Vec Ideal S128x128 .f32) (v12 : Vec Ideal S1x128 .f32) (v18 : Vec Ideal S128x64 .f32) (r : Fin 10000) (j : Fin 64) :
    k0_pay2 v0 v2 v6 v7 v9 v12 v18 (ix2 r j) = ∑ k' : Fin 128, k0_pay1 v0 v2 v6 v7 v9 v12 (ix2 r k') * v18 (ix2 k' j) := by
  unfold k0_pay2
  exact mm64_apply _ v18 r j

theorem pay3_apply (v0 : Vec Ideal S10000x128 .f32) (v2 : Vec Ideal S10000x1 .f32) (v6 : Vec Ideal S10000x128 .f32)
    (v7 v9 : Vec Ideal S128x128 .f32) (v12 : Vec Ideal S1x128 .f32) (v20 : Vec Ideal S128x64 .f32) (r : Fin 10000) (j : Fin 64) :
    k0_pay3 v0 v2 v6 v7 v9 v12 v20 (ix2 r j) = ∑ k' : Fin 128, k0_pay1 v0 v2 v6 v7 v9 v12 (ix2 r k') * v20 (ix2 k' j) := by
  unfold k0_pay3
  exact mm64_apply _ v20 r j

/-! ## The second body -/

theorem pay_out_apply (v0 : Vec Ideal S10000x64 .f32) (v2 : Vec Ideal S10000x1 .f32) (v6 : Vec Ideal S10000x64 .f32)
    (v9 : Vec Ideal S1x64 .f32) (r : Fin 10000) (j : Fin 64) :
    k1_pay1 v0 v2 v6 v9 (ix2 r j) = (v0 (ix2 r j) * v2 (ix2 r 0) + v6 (ix2 r j)) + v9 (ix2 0 j) := by
  unfold k1_pay1
  show ((shapeCast S10000x64 v0 shapeCasts_S10000x64_S10000x64) (ix2 r j)
      * (broadcastTo S10000x64 (shapeCast S10000x1 v2 shapeCasts_S10000x1_S10000x1) broadcasts_S10000x1_S10000x64) (ix2 r j)
      + (shapeCast S10000x64 v6 shapeCasts_S10000x64_S10000x64) (ix2 r j))
      + (broadcastTo S10000x64 (shapeCast S1x64 v9 shapeCasts_S1x64_S1x64) broadcasts_S1x64_S10000x64) (ix2 r j) = _
  rw [shapeCast_self, shapeCast_self, Cert.LibKeepdims.broadcastTo_a1_ab_apply, shapeCast_self, broadcastTo_1b_ab_apply, shapeCast_self]

end Cert.KernelIdeal.Body

end
-- ==== Proof.KernelOut.lean ====
/-
  What each kernel body leaves in its output block, at an index.

  The first body's block is 128 columns wide and written by two stores: columns 0–63 hold the hidden rows projected by
  the first weight matrix, columns 64–127 the hidden rows projected by the second. The second body stores its one
  pointwise result through the whole block.
-/
import proofs.«108149_j1090921693773_2_alg».proof.Proof.Gen.KernelIdeal.Frame
import proofs.«108149_j1090921693773_2_alg».proof.Proof.KernelBody

set_option maxRecDepth 16384

noncomputable section

namespace Cert.KernelIdeal.Out

open Cert.KernelIdeal Cert.KernelIdeal.Gen Cert.KernelIdeal.Body
open Idealize.ShloMosaic Idealize.ShloMosaic.ValueIdx

theorem hz : (![0, 0] : Fin 2 → Nat) = fun _ => 0 := funext fun a => by fin_cases a <;> rfl

/-- The hidden value of block row `r`, column `k'`, from the blocks the body loads. -/
def hidB (x0 : Vec Ideal S10000x128 .f32) (x1 : Vec Ideal S10000x1 .f32) (x2 : Vec Ideal S10000x128 .f32)
    (x3 : Vec Ideal S128x128 .f32) (x4 : Vec Ideal S1x128 .f32) (x5 : Vec Ideal S128x128 .f32)
    (r : Fin 10000) (k' : Fin 128) : EReal :=
  max (((∑ k : Fin 128, (x0 (ix2 r k) * x1 (ix2 r 0)) * x3 (ix2 k k'))
    + ∑ k : Fin 128, x2 (ix2 r k) * x5 (ix2 k k')) + x4 (ix2 0 k')) 0

theorem out0_8_apply (x0 : Vec Ideal S10000x128 .f32) (x1 : Vec Ideal S10000x1 .f32) (x2 : Vec Ideal S10000x128 .f32)
    (x3 : Vec Ideal S128x128 .f32) (x4 : Vec Ideal S1x128 .f32) (x5 : Vec Ideal S128x128 .f32)
    (x6 x7 : Vec Ideal S128x64 .f32) (r : Fin 10000) (cc : Fin 128) :
    out0_8 x0 x1 x2 x3 x4 x5 x6 x7 (ix2 r cc) =
      if h : cc.val < 64 then ∑ k' : Fin 128, hidB x0 x1 x2 x3 x4 x5 r k' * x6 (ix2 k' ⟨cc.val, h⟩)
      else ∑ k' : Fin 128, hidB x0 x1 x2 x3 x4 x5 r k' * x7 (ix2 k' ⟨cc.val - 64, by have := cc.isLt; omega⟩) := by
  unfold out0_8
  simp only [View.ld_unit_zero (S := S10000x128) hz, View.ld_unit_zero (S := S10000x1) hz,
    View.ld_unit_zero (S := S128x128) hz, View.ld_unit_zero (S := S1x128) hz, View.ld_unit_zero (S := S128x64) hz]
  by_cases h : cc.val < 64
  · rw [dif_pos h]
    rw [View.canon_cons_of_not_mem _ _ (y := ix2 r cc) (by
      rw [Rect.mem_set_unit]; intro hm
      have h1 : (64 : Nat) ≤ cc.val := (hm 1).1
      omega)]
    have e : ix2 r cc = r0_5.emb (ix2 r (⟨cc.val, h⟩ : Fin 64)) := funext fun a => Fin.ext (by
      match a with
      | ⟨0, _⟩ => show r.val = 0 + 1 * r.val; omega
      | ⟨1, _⟩ => show cc.val = 0 + 1 * cc.val; omega)
    rw [e, View.canon_cons_emb, pay2_apply]
    simp only [pay1_apply]
    rfl
  · rw [dif_neg h]
    have hc := cc.isLt
    have e : ix2 r cc = r0_6.emb (ix2 r (⟨cc.val - 64, by omega⟩ : Fin 64)) := funext fun a => Fin.ext (by
      match a with
      | ⟨0, _⟩ => show r.val = 0 + 1 * r.val; omega
      | ⟨1, _⟩ => show cc.val = 64 + 1 * (cc.val - 64); omega)
    rw [e, View.canon_cons_emb, pay3_apply]
    simp only [pay1_apply]
    rfl

theorem out1_4_apply (x0 : Vec Ideal S10000x64 .f32) (x1 : Vec Ideal S10000x1 .f32) (x2 : Vec Ideal S10000x64 .f32)
    (x3 : Vec Ideal S1x64 .f32) (r : Fin 10000) (j : Fin 64) :
    out1_4 x0 x1 x2 x3 (ix2 r j) = (x0 (ix2 r j) * x1 (ix2 r 0) + x2 (ix2 r j)) + x3 (ix2 0 j) := by
  unfold out1_4
  rw [View.canon_unit_zero hz]
  simp only [View.ld_unit_zero (S := S10000x64) hz, View.ld_unit_zero (S := S10000x1) hz, View.ld_unit_zero (S := S1x64) hz]
  exact pay_out_apply x0 x1 x2 x3 r j

end Cert.KernelIdeal.Out

end
-- ==== Proof.KernelRegions.lean ====
/-
  Each region's result array as one function of the arrays the region finds.

  Both regions run over a grid of 5 points; point `t` works on rows `10000·t … 10000·t + 9999` of the row-blocked
  operands and on the whole of the weight and bias operands. The output's blocks tile its array, so the array after
  the region is, at every index, what the body computes from row `n = 10000·t + r` of the row-blocked operands:
  the first region's packed projections of the hidden row, the second region's pointwise finish.
-/
import proofs.«108149_j1090921693773_2_alg».proof.Proof.Gen.KernelIdeal.Frame
import proofs.«108149_j1090921693773_2_alg».proof.Proof.KernelOut
import Idealize.ShloMosaic.Lib.Pipeline.Value

set_option maxRecDepth 16384

noncomputable section

namespace Cert.KernelIdeal.Regions

open Cert.KernelIdeal Cert.KernelIdeal.Gen Cert.KernelIdeal.Out
open Idealize.ShloMosaic Idealize.ShloMosaic.TcCoe Idealize.ShloMosaic.ValueIdx Idealize.SL.Sem
open Idealize.ShloMosaic.Pipeline (Dat)

/-! ## The whole-array functions -/

/-- The hidden value of node `n`, column `k'`, from whole arrays. -/
def hidA (s : FVec Ideal S50000x128 .f32) (v : FVec Ideal S50000x1 .f32) (x : FVec Ideal S50000x128 .f32)
    (w1l : FVec Ideal S128x128 .f32) (b1 : FVec Ideal S1x128 .f32) (w1r : FVec Ideal S128x128 .f32)
    (n : Fin 50000) (k' : Fin 128) : EReal :=
  max (((∑ k : Fin 128, (s (ix2 n k) * v (ix2 n 0)) * w1l (ix2 k k'))
    + ∑ k : Fin 128, x (ix2 n k) * w1r (ix2 k k')) + b1 (ix2 0 k')) 0

/-- The first region's packed result. -/
def G0 (s : FVec Ideal S50000x128 .f32) (v : FVec Ideal S50000x1 .f32) (x : FVec Ideal S50000x128 .f32)
    (w1l : FVec Ideal S128x128 .f32) (b1 : FVec Ideal S1x128 .f32) (w1r : FVec Ideal S128x128 .f32)
    (w2l w2r : FVec Ideal S128x64 .f32) : FVec Ideal S50000x128 .f32 := fun y =>
  if h : (y 1).val < 64 then ∑ k' : Fin 128, hidA s v x w1l b1 w1r (y 0) k' * w2l (ix2 k' ⟨(y 1).val, h⟩)
  else ∑ k' : Fin 128, hidA s v x w1l b1 w1r (y 0) k' * w2r (ix2 k' ⟨(y 1).val - 64, by have h2 : (y 1).val < 128 := (y 1).isLt; omega⟩)

/-- The second region's result. -/
def G1 (s : FVec Ideal S50000x64 .f32) (v : FVec Ideal S50000x1 .f32) (p : FVec Ideal S50000x64 .f32)
    (b2 : FVec Ideal S1x64 .f32) : FVec Ideal S50000x64 .f32 := fun y =>
  (s (ix2 (y 0) (y 1)) * v (ix2 (y 0) 0) + p (ix2 (y 0) (y 1))) + b2 (ix2 0 (y 1))

variable (V : (c : Dev nD) → (b : Ref sig .tc) → Buf (Elt Ideal) ((c : Thread nD τ).loc b)) (c : Dev nD)

/-! ## Region 0 -/

/-- The printed index maps over the grid: a row-blocked window's block index is the point; a whole operand's is zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- WHAT POINT `t` WRITES BACK is block `t` of `G0` of the arrays as the region finds them. -/
theorem flushed0_eq (t : Fin cfg0.N) :
    (dat0 V c).flushed 8 t = ((cfg0.win 8).blk t).view.read (Elt Ideal)
      (G0 (V c main_v22) (V c main_v12) (V c main_arg0) (V c main_arg2) (V c main_v23) (V c main_arg4)
        (V c main_arg5) (V c main_arg7)) := by
  show (cfg0.win 8).cut (grid0.coords t) ((dat0 V c).after 8 t) = _
  rw [after0_8]
  obtain ⟨e00, e01, e10, e11, e20, e21, e30, e31, e40, e41, e50, e51, e60, e61, e70, e71, e80, e81⟩ := idx_facts0 t
  have ht : t.val < 5 := t.isLt
  funext j
  obtain ⟨r, cc, rfl⟩ : ∃ (r : Fin 10000) (cc : Fin 128), j = ix2 r cc := ⟨j 0, j 1, eq_ix2 j⟩
  have hr := r.isLt
  have hcc := cc.isLt
  let n : Fin 50000 := ⟨t.val * 10000 + r.val, by omega⟩
  have hb0 : ∀ k : Fin 128, iblk0 V c 0 t (ix2 r k) = V c main_v22 (ix2 n k) := fun k => by
    show V c main_v22 (((cfg0.win 0).blk t).view.emb (ix2 r k)) = V c main_v22 (ix2 n k)
    refine congrArg (V c main_v22) (funext fun a => Fin.ext ?_)
    match a with
    | ⟨0, _⟩ => show win0_0.index t (0 : Fin 2) * 10000 + 1 * r.val = t.val * 10000 + r.val; omega
    | ⟨1, _⟩ => show win0_0.index t (1 : Fin 2) * 128 + 1 * k.val = k.val; omega
  have hb1 : iblk0 V c 1 t (ix2 r (0 : Fin 1)) = V c main_v12 (ix2 n (0 : Fin 1)) := by
    show V c main_v12 (((cfg0.win 1).blk t).view.emb (ix2 r (0 : Fin 1))) = V c main_v12 (ix2 n (0 : Fin 1))
    refine congrArg (V c main_v12) (funext fun a => Fin.ext ?_)
    match a with
    | ⟨0, _⟩ => show win0_1.index t (0 : Fin 2) * 10000 + 1 * r.val = t.val * 10000 + r.val; omega
    | ⟨1, _⟩ => show win0_1.index t (1 : Fin 2) * 1 + 1 * 0 = 0; omega
  have hb2 : ∀ k : Fin 128, iblk0 V c 2 t (ix2 r k) = V c main_arg0 (ix2 n k) := fun k => by
    show V c main_arg0 (((cfg0.win 2).blk t).view.emb (ix2 r k)) = V c main_arg0 (ix2 n k)
    refine congrArg (V c main_arg0) (funext fun a => Fin.ext ?_)
    match a with
    | ⟨0, _⟩ => show win0_2.index t (0 : Fin 2) * 10000 + 1 * r.val = t.val * 10000 + r.val; omega
    | ⟨1, _⟩ => show win0_2.index t (1 : Fin 2) * 128 + 1 * k.val = k.val; omega
  have hb3 : ∀ (p q : Fin 128), iblk0 V c 3 t (ix2 p q) = V c main_arg2 (ix2 p q) := fun p q => by
    show V c main_arg2 (((cfg0.win 3).blk t).view.emb (ix2 p q)) = V c main_arg2 (ix2 p q)
    refine congrArg (V c main_arg2) (funext fun a => Fin.ext ?_)
    match a with
    | ⟨0, _⟩ => show win0_3.index t (0 : Fin 2) * 128 + 1 * p.val = p.val; omega
    | ⟨1, _⟩ => show win0_3.index t (1 : Fin 2) * 128 + 1 * q.val = q.val; omega
  have hb4 : ∀ (q : Fin 128), iblk0 V c 4 t (ix2 (0 : Fin 1) q) = V c main_v23 (ix2 (0 : Fin 1) q) := fun q => by
    show V c main_v23 (((cfg0.win 4).blk t).view.emb (ix2 (0 : Fin 1) q)) = V c main_v23 (ix2 (0 : Fin 1) q)
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  have hb5 : ∀ (p q : Fin 128), iblk0 V c 5 t (ix2 p q) = V c main_arg4 (ix2 p q) := fun p q => by
    show V c main_arg4 (((cfg0.win 5).blk t).view.emb (ix2 p q)) = V c main_arg4 (ix2 p q)
    refine congrArg (V c main_arg4) (funext fun a => Fin.ext ?_)
    match a with
    | ⟨0, _⟩ => show win0_5.index t (0 : Fin 2) * 128 + 1 * p.val = p.val; omega
    | ⟨1, _⟩ => show win0_5.index t (1 : Fin 2) * 128 + 1 * q.val = q.val; omega
  have hb6 : ∀ (p : Fin 128) (q : Fin 64), iblk0 V c 6 t (ix2 p q) = V c main_arg5 (ix2 p q) := fun p q => by
    show V c main_arg5 (((cfg0.win 6).blk t).view.emb (ix2 p q)) = V c main_arg5 (ix2 p q)
    refine congrArg (V c main_arg5) (funext fun a => Fin.ext ?_)
    match a with
    | ⟨0, _⟩ => show win0_6.index t (0 : Fin 2) * 128 + 1 * p.val = p.val; omega
    | ⟨1, _⟩ => show win0_6.index t (1 : Fin 2) * 64 + 1 * q.val = q.val; omega
  have hb7 : ∀ (p : Fin 128) (q : Fin 64), iblk0 V c 7 t (ix2 p q) = V c main_arg7 (ix2 p q) := fun p q => by
    show V c main_arg7 (((cfg0.win 7).blk t).view.emb (ix2 p q)) = V c main_arg7 (ix2 p q)
    refine congrArg (V c main_arg7) (funext fun a => Fin.ext ?_)
    match a with
    | ⟨0, _⟩ => show win0_7.index t (0 : Fin 2) * 128 + 1 * p.val = p.val; omega
    | ⟨1, _⟩ => show win0_7.index t (1 : Fin 2) * 64 + 1 * q.val = q.val; omega
  have hh : ∀ k' : Fin 128, hidB (iblk0 V c 0 t) (iblk0 V c 1 t) (iblk0 V c 2 t) (iblk0 V c 3 t) (iblk0 V c 4 t) (iblk0 V c 5 t) r k'
      = hidA (V c main_v22) (V c main_v12) (V c main_arg0) (V c main_arg2) (V c main_v23) (V c main_arg4) n k' := fun k' => by
    unfold hidB hidA
    rw [hb1, hb4]
    simp only [hb0, hb2, hb3, hb5]
  have he : ((cfg0.win 8).blk t).view.emb (ix2 r cc) = (ix2 n cc : S50000x128.Idx) := funext fun a => Fin.ext (by
    match a with
    | ⟨0, _⟩ => show win0_8.index t (0 : Fin 2) * 10000 + 1 * r.val = t.val * 10000 + r.val; omega
    | ⟨1, _⟩ => show win0_8.index t (1 : Fin 2) * 128 + 1 * cc.val = cc.val; omega)
  show out0_8 (iblk0 V c 0 t) (iblk0 V c 1 t) (iblk0 V c 2 t) (iblk0 V c 3 t) (iblk0 V c 4 t) (iblk0 V c 5 t)
      (iblk0 V c 6 t) (iblk0 V c 7 t) (ix2 r cc)
    = G0 (V c main_v22) (V c main_v12) (V c main_arg0) (V c main_arg2) (V c main_v23) (V c main_arg4)
        (V c main_arg5) (V c main_arg7) (((cfg0.win 8).blk t).view.emb (ix2 r cc))
  rw [he]
  refine (out0_8_apply _ _ _ _ _ _ _ _ r cc).trans ?_
  unfold G0
  by_cases h : cc.val < 64
  · rw [dif_pos h, dif_pos (show ((ix2 n cc : S50000x128.Idx) 1).val < 64 from h)]
    exact Finset.sum_congr rfl fun k' _ => by rw [hh k', hb6]
  · rw [dif_neg h, dif_neg (show ¬ ((ix2 n cc : S50000x128.Idx) 1).val < 64 from h)]
    exact Finset.sum_congr rfl fun k' _ => by rw [hh k', hb7]

/-- An index of the result array is in point `t`'s block iff its row is among the point's rows. -/
theorem mem_blk0 (t : Fin cfg0.N) (i : S50000x128.Idx) :
    i ∈ ((cfg0.win 8).blk t).view.set ↔ ∀ a : Fin 2, win0_8.index t a * S10000x128.size a ≤ (i a).val
      ∧ (i a).val < win0_8.index t a * S10000x128.size a + S10000x128.size a := by
  show i ∈ ((View.whole main_v24).slice (win0_8.rect t)).set ↔ _
  rw [View.set_slice_whole, Rect.mem_set_unit]
  exact Iff.rfl

/-- THE ARRAY after region 0. -/
theorem final0 : (dat0 V c).arrAt 8 cfg0.N
    = G0 (V c main_v22) (V c main_v12) (V c main_arg0) (V c main_arg2) (V c main_v23) (V c main_arg4)
        (V c main_arg5) (V c main_arg7) :=
  (dat0 V c).arrAt_eq_of_cover 8 _ (fun t _ => flushed0_eq V c t) (fun i => by
    have hi0 : (i 0).val < 50000 := (i 0).isLt
    have hi1 : (i 1).val < 128 := (i 1).isLt
    let t : Fin cfg0.N := ⟨(i 0).val / 10000, by show (i 0).val / 10000 < 5; omega⟩
    obtain ⟨_, _, _, _, _, _, _, _, _, _, _, _, _, _, _, _, e80, e81⟩ := idx_facts0 t
    have ht : t.val = (i 0).val / 10000 := rfl
    refine ⟨t, flush0_8 t, ?_⟩
    rw [mem_blk0]
    intro a
    match a with
    | ⟨0, _⟩ => show win0_8.index t (0 : Fin 2) * 10000 ≤ (i 0).val ∧ (i 0).val < win0_8.index t (0 : Fin 2) * 10000 + 10000; omega
    | ⟨1, _⟩ => show win0_8.index t (1 : Fin 2) * 128 ≤ (i 1).val ∧ (i 1).val < win0_8.index t (1 : Fin 2) * 128 + 128; omega)

/-! ## Region 1 -/

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem flushed1_eq (t : Fin cfg1.N) :
    (dat1 V c).flushed 4 t = ((cfg1.win 4).blk t).view.read (Elt Ideal)
      (G1 (V c main_v36) (V c main_v12) (V c main_v26) (V c main_v37)) := by
  show (cfg1.win 4).cut (grid1.coords t) ((dat1 V c).after 4 t) = _
  rw [after1_4]
  obtain ⟨e00, e01, e10, e11, e20, e21, e30, e31, e40, e41⟩ := idx_facts1 t
  have ht : t.val < 5 := t.isLt
  funext j
  obtain ⟨r, cc, rfl⟩ : ∃ (r : Fin 10000) (cc : Fin 64), j = ix2 r cc := ⟨j 0, j 1, eq_ix2 j⟩
  have hr := r.isLt
  have hcc := cc.isLt
  let n : Fin 50000 := ⟨t.val * 10000 + r.val, by omega⟩
  have hb0 : iblk1 V c 0 t (ix2 r cc) = V c main_v36 (ix2 n cc) := by
    show V c main_v36 (((cfg1.win 0).blk t).view.emb (ix2 r cc)) = V c main_v36 (ix2 n cc)
    refine congrArg (V c main_v36) (funext fun a => Fin.ext ?_)
    match a with
    | ⟨0, _⟩ => show win1_0.index t (0 : Fin 2) * 10000 + 1 * r.val = t.val * 10000 + r.val; omega
    | ⟨1, _⟩ => show win1_0.index t (1 : Fin 2) * 64 + 1 * cc.val = cc.val; omega
  have hb1 : iblk1 V c 1 t (ix2 r (0 : Fin 1)) = V c main_v12 (ix2 n (0 : Fin 1)) := by
    show V c main_v12 (((cfg1.win 1).blk t).view.emb (ix2 r (0 : Fin 1))) = V c main_v12 (ix2 n (0 : Fin 1))
    refine congrArg (V c main_v12) (funext fun a => Fin.ext ?_)
    match a with
    | ⟨0, _⟩ => show win1_1.index t (0 : Fin 2) * 10000 + 1 * r.val = t.val * 10000 + r.val; omega
    | ⟨1, _⟩ => show win1_1.index t (1 : Fin 2) * 1 + 1 * 0 = 0; omega
  have hb2 : iblk1 V c 2 t (ix2 r cc) = V c main_v26 (ix2 n cc) := by
    show V c main_v26 (((cfg1.win 2).blk t).view.emb (ix2 r cc)) = V c main_v26 (ix2 n cc)
    refine congrArg (V c main_v26) (funext fun a => Fin.ext ?_)
    match a with
    | ⟨0, _⟩ => show win1_2.index t (0 : Fin 2) * 10000 + 1 * r.val = t.val * 10000 + r.val; omega
    | ⟨1, _⟩ => show win1_2.index t (1 : Fin 2) * 64 + 1 * cc.val = cc.val; omega
  have hb3 : iblk1 V c 3 t (ix2 (0 : Fin 1) cc) = V c main_v37 (ix2 (0 : Fin 1) cc) := by
    show V c main_v37 (((cfg1.win 3).blk t).view.emb (ix2 (0 : Fin 1) cc)) = V c main_v37 (ix2 (0 : Fin 1) cc)
    refine congrArg (V c main_v37) (funext fun a => Fin.ext ?_)
    match a with
    | ⟨0, _⟩ => show win1_3.index t (0 : Fin 2) * 1 + 1 * 0 = 0; omega
    | ⟨1, _⟩ => show win1_3.index t (1 : Fin 2) * 64 + 1 * cc.val = cc.val; omega
  have he : ((cfg1.win 4).blk t).view.emb (ix2 r cc) = (ix2 n cc : S50000x64.Idx) := funext fun a => Fin.ext (by
    match a with
    | ⟨0, _⟩ => show win1_4.index t (0 : Fin 2) * 10000 + 1 * r.val = t.val * 10000 + r.val; omega
    | ⟨1, _⟩ => show win1_4.index t (1 : Fin 2) * 64 + 1 * cc.val = cc.val; omega)
  show out1_4 (iblk1 V c 0 t) (iblk1 V c 1 t) (iblk1 V c 2 t) (iblk1 V c 3 t) (ix2 r cc)
    = G1 (V c main_v36) (V c main_v12) (V c main_v26) (V c main_v37) (((cfg1.win 4).blk t).view.emb (ix2 r cc))
  rw [he]
  refine (out1_4_apply _ _ _ _ r cc).trans ?_
  rw [hb0, hb1, hb2, hb3]
  rfl

theorem mem_blk1 (t : Fin cfg1.N) (i : S50000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v38).slice (win1_4.rect t)).set ↔ _
  rw [View.set_slice_whole, Rect.mem_set_unit]
  exact Iff.rfl

/-- THE ARRAY after region 1. -/
theorem final1 : (dat1 V c).arrAt 4 cfg1.N = G1 (V c main_v36) (V c main_v12) (V c main_v26) (V c main_v37) :=
  (dat1 V c).arrAt_eq_of_cover 4 _ (fun t _ => flushed1_eq V c t) (fun i => by
    have hi0 : (i 0).val < 50000 := (i 0).isLt
    have hi1 : (i 1).val < 64 := (i 1).isLt
    let t : Fin cfg1.N := ⟨(i 0).val / 10000, by show (i 0).val / 10000 < 5; omega⟩
    obtain ⟨_, _, _, _, _, _, _, _, e40, e41⟩ := idx_facts1 t
    have ht : t.val = (i 0).val / 10000 := rfl
    refine ⟨t, flush1_4 t, ?_⟩
    rw [mem_blk1]
    intro a
    match a with
    | ⟨0, _⟩ => show win1_4.index t (0 : Fin 2) * 10000 ≤ (i 0).val ∧ (i 0).val < win1_4.index t (0 : Fin 2) * 10000 + 10000; omega
    | ⟨1, _⟩ => show win1_4.index t (1 : Fin 2) * 64 ≤ (i 1).val ∧ (i 1).val < win1_4.index t (1 : Fin 2) * 64 + 64; omega)

end Cert.KernelIdeal.Regions

end
-- ==== Proof.KernelHost.lean ====
/-
  The idealized kernel's host operations as functions of the arrays they read.

  Before the first region @main computes, from `edge_index`: the source and destination vectors; the per-node edge
  count (a scatter-add of ones by destination), its reciprocal after clamping below by one, as a column; and the
  neighbourhood sums of `x` (gather the source rows, scatter-add them by destination). Between the regions it splits
  the first region's packed result into its two halves and takes the neighbourhood sums of the left half. Each buffer
  the regions read is stated here as that function of what the stretch of host operations found.
-/
import proofs.«108149_j1090921693773_2_alg».proof.Proof.Gen.KernelIdeal.Frame
import Idealize.ShloMosaic.Lib.StableHlo.Run
import Idealize.ShloMosaic.PureOps.Ideal.Laws
import Idealize.ShloMosaic.Lib.Pipeline.Value
import Idealize.ShloMosaic.Lib.ValueIdx

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo

/-! ## The operations' terms -/

/-- Row `r` of `edge_index` as a vector. -/
def srcOf (ei : IVec S2x800000 32) : IVec S800000 32 :=
  shapeCast S800000 (extractStridedSlice S1x800000 ![0, 0] ei slices_S2x800000_S1x800000_0_0) shapeCasts_S1x800000_S800000
def dstOf (ei : IVec S2x800000 32) : IVec S800000 32 :=
  shapeCast S800000 (extractStridedSlice S1x800000 ![1, 0] ei slices_S2x800000_S1x800000_1_0) shapeCasts_S1x800000_S800000

/-- A vector of row numbers as the column a gather or scatter reads. -/
def colOf (v : IVec S800000 32) : IVec S800000x1 32 := broadcastInDim S800000x1 ![0] bcast_S800000_S800000x1_0 v

/-- A negative row number counts from the end. -/
def wrap (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The number of edges into each node. -/
def cntOf (dst : IVec S800000 32) : FVec Ideal S50000 .f32 :=
  Host.scatterAdd scatter_S50000_S800000x1_S800000_n_0_0_1
    (broadcastInDim S50000 ![] bcast_S_S50000 (constant S_ .f32 0x00000000#32)) (colOf dst)
    (broadcastInDim S800000 ![] bcast_S_S800000 (constant S_ .f32 0x3F800000#32))

/-- Its clamped reciprocal, as a column. -/
def invColOf (dst : IVec S800000 32) : FVec Ideal S50000x1 .f32 :=
  shapeCast S50000x1
    (Host.divf (broadcastInDim S50000 ![] bcast_S_S50000 (constant S_ .f32 0x3F800000#32))
      (maximumf (cntOf dst) (broadcastInDim S50000 ![] bcast_S_S50000 (constant S_ .f32 0x3F800000#32))))
    shapeCasts_S50000_S50000x1

/-- The neighbourhood sums of 128-wide rows. -/
def sum128 (src dst : IVec S800000 32) (X : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32)) (colOf dst)
    (Host.gather gather_S50000x128_S800000x1_S800000x128_1_0_n_n_0_1_1128 X (colOf (wrap src)))

/-- The neighbourhood sums of 64-wide rows. -/
def sum64 (src dst : IVec S800000 32) (X : FVec Ideal S50000x64 .f32) : FVec Ideal S50000x64 .f32 :=
  Host.scatterAdd scatter_S50000x64_S800000x1_S800000x64_1_0_0_1
    (broadcastInDim S50000x64 ![] bcast_S_S50000x64 (constant S_ .f32 0x00000000#32)) (colOf dst)
    (Host.gather gather_S50000x64_S800000x1_S800000x64_1_0_n_n_0_1_164 X (colOf (wrap src)))

def leftHalf (Y : FVec Ideal S50000x128 .f32) : FVec Ideal S50000x64 .f32 :=
  extractStridedSlice S50000x64 ![0, 0] Y slices_S50000x128_S50000x64_0_0
def rightHalf (Y : FVec Ideal S50000x128 .f32) : FVec Ideal S50000x64 .f32 :=
  extractStridedSlice S50000x64 ![0, 64] Y slices_S50000x128_S50000x64_0_64

def row128 (b : FVec Ideal S128 .f32) : FVec Ideal S1x128 .f32 := shapeCast S1x128 b shapeCasts_S128_S1x128
def row64 (b : FVec Ideal S64 .f32) : FVec Ideal S1x64 .f32 := shapeCast S1x64 b shapeCasts_S64_S1x64

/-! ## What the first stretch leaves -/

variable (m : (ℓ : Loc nD τ sig) → Buf (Elt Ideal) ℓ) (ρ : Dev nD → PrngReg) (c : Dev nD)

theorem W1_v1 : (W1 m ρ c (Proc.devRef .tc main_v1) : S800000.Idx → BitVec 32)
    = srcOf (m ((c.tc : Thread nD τ).loc main_arg1)) := by
  after_results; rfl

theorem W1_v3 : (W1 m ρ c (Proc.devRef .tc main_v3) : S800000.Idx → BitVec 32)
    = dstOf (m ((c.tc : Thread nD τ).loc main_arg1)) := by
  after_results; rfl

theorem W1_v12 : (W1 m ρ c (Proc.devRef .tc main_v12) : S50000x1.Idx → EReal)
    = invColOf (dstOf (m ((c.tc : Thread nD τ).loc main_arg1))) := by
  after_results; rfl

theorem W1_v22 : (W1 m ρ c (Proc.devRef .tc main_v22) : S50000x128.Idx → EReal)
    = sum128 (srcOf (m ((c.tc : Thread nD τ).loc main_arg1))) (dstOf (m ((c.tc : Thread nD τ).loc main_arg1)))
        (m ((c.tc : Thread nD τ).loc main_arg0)) := by
  after_results_simp <;> rfl

theorem W1_v23 : (W1 m ρ c (Proc.devRef .tc main_v23) : S1x128.Idx → EReal)
    = row128 (m ((c.tc : Thread nD τ).loc main_arg3)) := by
  after_results; rfl

theorem W1_arg0 : W1 m ρ c (Proc.devRef .tc main_arg0) = m ((c.tc : Thread nD τ).loc main_arg0) := by
  after_results
theorem W1_arg2 : W1 m ρ c (Proc.devRef .tc main_arg2) = m ((c.tc : Thread nD τ).loc main_arg2) := by
  after_results
theorem W1_arg4 : W1 m ρ c (Proc.devRef .tc main_arg4) = m ((c.tc : Thread nD τ).loc main_arg4) := by
  after_results
theorem W1_arg5 : W1 m ρ c (Proc.devRef .tc main_arg5) = m ((c.tc : Thread nD τ).loc main_arg5) := by
  after_results
theorem W1_arg6 : W1 m ρ c (Proc.devRef .tc main_arg6) = m ((c.tc : Thread nD τ).loc main_arg6) := by
  after_results
theorem W1_arg7 : W1 m ρ c (Proc.devRef .tc main_arg7) = m ((c.tc : Thread nD τ).loc main_arg7) := by
  after_results

/-! ## What the second stretch leaves, from what the first region left -/

theorem W3_v36 : (W3 m ρ c (Proc.devRef .tc main_v36) : S50000x64.Idx → EReal)
    = sum64 (W2 m ρ c (Proc.devRef .tc main_v1)) (W2 m ρ c (Proc.devRef .tc main_v3))
        (leftHalf (W2 m ρ c (Proc.devRef .tc main_v24))) := by
  after_results; rfl

theorem W3_v26 : (W3 m ρ c (Proc.devRef .tc main_v26) : S50000x64.Idx → EReal)
    = rightHalf (W2 m ρ c (Proc.devRef .tc main_v24)) := by
  after_results; rfl

theorem W3_v37 : (W3 m ρ c (Proc.devRef .tc main_v37) : S1x64.Idx → EReal)
    = row64 (W2 m ρ c (Proc.devRef .tc main_arg6)) := by
  after_results; rfl

theorem W3_v12 : W3 m ρ c (Proc.devRef .tc main_v12) = W2 m ρ c (Proc.devRef .tc main_v12) := by
  after_results

end Cert.KernelIdeal.HostVal

end
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.LibRowScatterSum.lean ====
/-
  A scatter-add of rows, and of vector entries, by ONE row number per update, read at an index as a sum over the updates.

  An integer column `idx : [E, 1]` names one row of the operand for each of `E` updates. Update element `(e, c')` of
  `u : [E, C]` lands on operand element `(i, c)` of `[N, C]` exactly when `idx[e, 0]`, read as a signed integer, is `i`
  and `c' = c` (an update whose row is outside `[0, N)` lands nowhere). So on the extended reals the accumulated
  scatter is, at `(i, c)`, the operand's element plus the sum of `u[e, c]` over the updates `e` whose row number is `i`:
  which updates contribute depends on the column of row numbers only, not on `c` and not on the width `C`.
  The same for a vector of updates `[E]` scattered into `[N]`.
-/
import Idealize.ShloMosaic.Lib.ValueIdx
import Idealize.ShloMosaic.PureOps.Ideal.Laws
import proofs.«108149_j1090921693773_2_alg».proof.Proof.LibRowIndex

noncomputable section

namespace Cert.Lib.RowScatterSum

open Idealize.ShloMosaic Idealize.ShloMosaic.ValueIdx Cert.Lib.RowIndex

/-! ## Rows of a matrix -/

section Rows

variable {N C E w : Nat} (wf : ScatterDims.WF ⟨2, ![N, C]⟩ ⟨2, ![E, 1]⟩ ⟨2, ![E, C]⟩ [1] [0] [0] 1)

/-- On the row axis the start of an update's window is its row number, read signed. -/
theorem start_row (idx : IVec ⟨2, ![E, 1]⟩ w) (u : (⟨2, ![E, C]⟩ : Shape).Idx) :
    (rowScatterDims N C E wf).start u idx 0 = (idx (ix2 (u 0) 0)).toInt := by
  unfold ScatterDims.start
  rw [dif_pos (show (0 : Fin 2) ∈ (rowScatterDims N C E wf).scatterDimsToOperandDims from List.mem_singleton.mpr rfl)]
  have hsi : (rowScatterDims N C E wf).siIdx u ⟨List.idxOf (0 : Fin 2) (rowScatterDims N C E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- On the column axis the window starts at zero. -/
theorem start_col (idx : IVec ⟨2, ![E, 1]⟩ w) (u : (⟨2, ![E, C]⟩ : Shape).Idx) :
    (rowScatterDims N C E wf).start u idx 1 = 0 := by
  unfold ScatterDims.start
  rw [dif_neg (show ¬ (1 : Fin 2) ∈ (rowScatterDims N C E wf).scatterDimsToOperandDims from
    (by decide : ¬ (1 : Fin 2) ∈ ([0] : List (Fin 2))))]

/-- The row axis is inserted: no window coordinate on it. -/
theorem window_row (u : (⟨2, ![E, C]⟩ : Shape).Idx) : (rowScatterDims N C E wf).window u 0 = 0 := by
  unfold ScatterDims.window
  rw [dif_neg (show ¬ (0 : Fin 2) ∈ (rowScatterDims N C E wf).sKept from
    (by decide : ¬ (0 : Fin 2) ∈ (List.finRange 2).filter (fun a => a ∉ ([0] : List (Fin 2)))))]

/-- The window coordinate on the column axis is the update's column. -/
theorem window_col (u : (⟨2, ![E, C]⟩ : Shape).Idx) : (rowScatterDims N C E wf).window u 1 = (u 1).val := by
  unfold ScatterDims.window
  rw [dif_pos (show (1 : Fin 2) ∈ (rowScatterDims N C E wf).sKept from
    (by decide : (1 : Fin 2) ∈ (List.finRange 2).filter (fun a => a ∉ ([0] : List (Fin 2)))))]
  rfl

/-- Update element `(e, c')` lands on `(i, c)` exactly when its row number is `i` and its column is `c`. -/
theorem lands_iff (idx : IVec ⟨2, ![E, 1]⟩ w) (e : Fin E) (c' : Fin C) (i : Fin N) (c : Fin C) :
    (rowScatterDims N C E wf).resultIdx? (ix2 e c') idx = some (ix2 i c)
      ↔ ((idx (ix2 e 0)).toInt = (i.val : Int) ∧ c' = c) := by
  have s0 : (rowScatterDims N C E wf).start (ix2 e c') idx 0 = (idx (ix2 e 0)).toInt := start_row wf idx (ix2 e c')
  have s1 := start_col wf idx (ix2 e c')
  have w0 := window_row wf (ix2 e c')
  have w1 : (rowScatterDims N C E wf).window (ix2 e c') 1 = c'.val := window_col wf (ix2 e c')
  unfold ScatterDims.resultIdx?
  constructor
  · intro h
    split at h
    · rename_i hb
      have hv := Option.some.inj h
      have e0 : ((rowScatterDims N C E wf).start (ix2 e c') idx 0
          + ((rowScatterDims N C E wf).window (ix2 e c') 0 : Int)).toNat = i.val :=
        congrArg (fun f : (⟨2, ![N, C]⟩ : Shape).Idx => (f 0).val) hv
      have e1 : ((rowScatterDims N C E wf).start (ix2 e c') idx 1
          + ((rowScatterDims N C E wf).window (ix2 e c') 1 : Int)).toNat = c.val :=
        congrArg (fun f : (⟨2, ![N, C]⟩ : Shape).Idx => (f 1).val) hv
      have hb0 := (hb 0).1
      rw [s0, w0] at e0 hb0
      rw [s1, w1] at e1
      simp only [Nat.cast_zero, add_zero] at e0 hb0
      exact ⟨by omega, Fin.ext (by omega)⟩
    · exact absurd h (by simp)
  · rintro ⟨hr, rfl⟩
    split
    · refine congrArg some (funext fun a => Fin.ext ?_)
      match a with
      | ⟨0, _⟩ =>
        show ((rowScatterDims N C E wf).start (ix2 e c') idx 0
          + ((rowScatterDims N C E wf).window (ix2 e c') 0 : Int)).toNat = i.val
        rw [s0, w0, hr]; simp
      | ⟨1, _⟩ =>
        show ((rowScatterDims N C E wf).start (ix2 e c') idx 1
          + ((rowScatterDims N C E wf).window (ix2 e c') 1 : Int)).toNat = c'.val
        rw [s1, w1]; simp
    · rename_i hb
      exfalso; apply hb; intro a
      match a with
      | ⟨0, _⟩ =>
        show 0 ≤ (rowScatterDims N C E wf).start (ix2 e c') idx 0 + ((rowScatterDims N C E wf).window (ix2 e c') 0 : Int)
          ∧ (rowScatterDims N C E wf).start (ix2 e c') idx 0 + ((rowScatterDims N C E wf).window (ix2 e c') 0 : Int) < (N : Int)
        rw [s0, w0, hr]; have := i.isLt; constructor <;> omega
      | ⟨1, _⟩ =>
        show 0 ≤ (rowScatterDims N C E wf).start (ix2 e c') idx 1 + ((rowScatterDims N C E wf).window (ix2 e c') 1 : Int)
          ∧ (rowScatterDims N C E wf).start (ix2 e c') idx 1 + ((rowScatterDims N C E wf).window (ix2 e c') 1 : Int) < (C : Int)
        rw [s1, w1]; have := c'.isLt; constructor <;> omega

/-- The accumulated row scatter at `(i, c)`: the operand's element plus the sum, over the updates whose row number is
    `i`, of the update's element in column `c`. -/
theorem rowScatterAdd_apply {φ : FTy} (x : FVec Ideal ⟨2, ![N, C]⟩ φ) (idx : IVec ⟨2, ![E, 1]⟩ w)
    (upd : FVec Ideal ⟨2, ![E, C]⟩ φ) (i : Fin N) (c : Fin C) :
    Host.scatterAdd (rowScatterDims N C E wf) x idx upd (ix2 i c)
      = x (ix2 i c) + ∑ e ∈ Finset.univ.filter (fun e : Fin E => (idx (ix2 e 0)).toInt = (i.val : Int)), upd (ix2 e c) := by
  show Ideal.hostScatterAdd (rowScatterDims N C E wf) x idx upd (ix2 i c) = _
  unfold Ideal.hostScatterAdd
  congr 1
  rw [Finset.sum_filter, sum_idx2, Finset.sum_filter]
  refine Finset.sum_congr rfl fun e _ => ?_
  by_cases hr : (idx (ix2 e 0)).toInt = (i.val : Int)
  · rw [if_pos hr, Finset.sum_eq_single c]
    · rw [if_pos ((lands_iff wf idx e c i c).mpr ⟨hr, rfl⟩)]
    · intro c' _ hne
      exact if_neg fun h => hne ((lands_iff wf idx e c' i c).mp h).2
    · intro h; exact absurd (Finset.mem_univ c) h
  · rw [if_neg hr]
    exact Finset.sum_eq_zero fun c' _ => if_neg fun h => hr ((lands_iff wf idx e c' i c).mp h).1

end Rows

/-! ## Entries of a vector -/

section Entries

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `zeros.at[idx].add(u)` for updates `u : [E]` into `[N]` and a column of positions
    `idx : [E, 1]`: no window axis, the operand's one axis inserted, one start index per update. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vstart (idx : IVec ⟨2, ![E, 1]⟩ w) (u : (⟨1, ![E]⟩ : Shape).Idx) :
    (vecScatterDims N E wf).start u idx 0 = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

theorem vwindow (u : (⟨1, ![E]⟩ : Shape).Idx) : (vecScatterDims N E wf).window u 0 = 0 := by
  unfold ScatterDims.window
  rw [dif_neg (show ¬ (0 : Fin 1) ∈ (vecScatterDims N E wf).sKept from
    (by decide : ¬ (0 : Fin 1) ∈ (List.finRange 1).filter (fun a => a ∉ ([0] : List (Fin 1)))))]

/-- Update `e` lands on entry `i` exactly when its position, read signed, is `i`. -/
theorem vlands_iff (idx : IVec ⟨2, ![E, 1]⟩ w) (e : Fin E) (i : Fin N) :
    (vecScatterDims N E wf).resultIdx? (ix1 e) idx = some (ix1 i) ↔ (idx (ix2 e 0)).toInt = (i.val : Int) := by
  have s0 : (vecScatterDims N E wf).start (ix1 e) idx 0 = (idx (ix2 e 0)).toInt := vstart wf idx (ix1 e)
  have w0 := vwindow wf (ix1 e)
  unfold ScatterDims.resultIdx?
  constructor
  · intro h
    split at h
    · rename_i hb
      have e0 : ((vecScatterDims N E wf).start (ix1 e) idx 0
          + ((vecScatterDims N E wf).window (ix1 e) 0 : Int)).toNat = i.val :=
        congrArg (fun f : (⟨1, ![N]⟩ : Shape).Idx => (f 0).val) (Option.some.inj h)
      have hb0 := (hb 0).1
      rw [s0, w0] at e0 hb0
      simp only [Nat.cast_zero, add_zero] at e0 hb0
      omega
    · exact absurd h (by simp)
  · intro hr
    split
    · refine congrArg some (funext fun a => Fin.ext ?_)
      match a with
      | ⟨0, _⟩ =>
        show ((vecScatterDims N E wf).start (ix1 e) idx 0
          + ((vecScatterDims N E wf).window (ix1 e) 0 : Int)).toNat = i.val
        rw [s0, w0, hr]; simp
    · rename_i hb
      exfalso; apply hb; intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [s0, w0, hr]; have := i.isLt; constructor <;> omega

/-- The accumulated scatter of vector entries at `i`: the operand's entry plus the sum of the updates whose position is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (vecScatterDims N E wf) x idx upd (ix1 i)
      = x (ix1 i) + ∑ e ∈ Finset.univ.filter (fun e : Fin E => (idx (ix2 e 0)).toInt = (i.val : Int)), upd (ix1 e) := by
  show Ideal.hostScatterAdd (vecScatterDims N E wf) x idx upd (ix1 i) = _
  unfold Ideal.hostScatterAdd
  congr 1
  rw [Finset.sum_filter, sum_idx1, Finset.sum_filter]
  refine Finset.sum_congr rfl fun e _ => ?_
  by_cases hr : (idx (ix2 e 0)).toInt = (i.val : Int)
  · rw [if_pos hr, if_pos ((vlands_iff wf idx e i).mpr hr)]
  · rw [if_neg hr, if_neg fun h => hr ((vlands_iff wf idx e i).mp h)]

end Entries

end Cert.Lib.RowScatterSum

end
-- ==== Proof.SageIdx.lean ====
/-
  The graph the two programs read off `edge_index`, and their row gathers and scatters over it on the extended reals.

  A column of 800000 row numbers `dcol` (destinations) decides which edges are added into node `i`: those whose number,
  read as a signed integer, is `i` (`hits`). A column `scol` (sources) decides which node's row edge `e` reads: its
  number read signed and clamped into `[0, 49999]` (`rowOf`). With these, a row gather is `X[rowOf e]`, and an
  accumulated row scatter is the operand plus the sum over `hits` — at any width, and for a vector of updates too.
  The float words `0x00000000` and `0x3F800000` denote `0` and `1`.
-/
import proofs.«108149_j1090921693773_2_alg».proof.Proof.LibRowIndex
import proofs.«108149_j1090921693773_2_alg».proof.Proof.LibRowScatterSum

noncomputable section

namespace Cert.Sage

open Idealize.ShloMosaic Idealize.ShloMosaic.ValueIdx Cert.Lib.RowIndex Cert.Lib.RowScatterSum

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- The edges added into node `i`. -/
def hits (dcol : IVec ⟨2, ![800000, 1]⟩ 32) (i : Fin 50000) : Finset (Fin 800000) :=
  Finset.univ.filter fun e : Fin 800000 => (dcol (ix2 e 0)).toInt = (i.val : Int)

/-- The node whose row edge `e` reads. -/
def rowOf (scol : IVec ⟨2, ![800000, 1]⟩ 32) (e : Fin 800000) : Fin 50000 :=
  ⟨min (scol (ix2 e 0)).toInt.toNat (50000 - 1), by omega⟩

theorem gatherRows_apply {C : Nat}
    (wf : GatherDims.WF ⟨2, ![50000, C]⟩ ⟨2, ![800000, 1]⟩ ⟨2, ![800000, C]⟩ [1] [0] [] [0] [] 1 ![1, C])
    (X : FVec Ideal ⟨2, ![50000, C]⟩ .f32) (scol : IVec ⟨2, ![800000, 1]⟩ 32) (e : Fin 800000) (k : Fin C) :
    Host.gather (rowGatherDims 50000 C 800000 wf) X scol (ix2 e k) = X (ix2 (rowOf scol e) k) :=
  rowGather_apply (by norm_num) wf X scol e k

theorem scatterRows_apply {C : Nat}
    (wf : ScatterDims.WF ⟨2, ![50000, C]⟩ ⟨2, ![800000, 1]⟩ ⟨2, ![800000, C]⟩ [1] [0] [0] 1)
    (Z : FVec Ideal ⟨2, ![50000, C]⟩ .f32) (dcol : IVec ⟨2, ![800000, 1]⟩ 32) (U : FVec Ideal ⟨2, ![800000, C]⟩ .f32)
    (i : Fin 50000) (k : Fin C) :
    Host.scatterAdd (rowScatterDims 50000 C 800000 wf) Z dcol U (ix2 i k)
      = Z (ix2 i k) + ∑ e ∈ hits dcol i, U (ix2 e k) :=
  rowScatterAdd_apply wf Z dcol U i k

theorem scatterVec_apply
    (wf : ScatterDims.WF ⟨1, ![50000]⟩ ⟨2, ![800000, 1]⟩ ⟨1, ![800000]⟩ [] [0] [0] 1)
    (Z : FVec Ideal ⟨1, ![50000]⟩ .f32) (dcol : IVec ⟨2, ![800000, 1]⟩ 32) (U : FVec Ideal ⟨1, ![800000]⟩ .f32)
    (i : Fin 50000) :
    Host.scatterAdd (vecScatterDims 50000 800000 wf) Z dcol U (ix1 i)
      = Z (ix1 i) + ∑ e ∈ hits dcol i, U (ix1 e) :=
  vecScatterAdd_apply wf Z dcol U i

end Cert.Sage

end
-- ==== Proof.SageLaw.lean ====
/-
  The mathematics joining the two programs: two layers of mean aggregation over a graph, on the extended reals.

  Nodes `ι`, edges `ε`; edge `e` reads the features of node `R e` and is added into every node `i` with `e ∈ S i`.
  `agg f i = 0 + ∑ e ∈ S i, f (R e)` is the neighbourhood sum, `cnt i = 0 + ∑ e ∈ S i, 1` the number of such edges, and
  `cmax i = max (cnt i) 1` what a mean divides by.

  * The reference computes, per layer, `(agg h / cmax) · Wl + b + h · Wr`, with a rectifier between the layers.
  * The kernel multiplies by the reciprocal `1 / cmax` instead of dividing, adds the bias last, and in the second layer
    aggregates the already projected rows `h · W2l` instead of projecting the aggregated ones.

  When every input is a real number the two agree: division by the nonzero real `cmax i` is multiplication by its
  reciprocal, a finite sum of reals is real, and over the reals the projection commutes with the neighbourhood sum
  (`(∑ e, ∑ k, h (R e) k · W k j) · c⁻¹ = ∑ k, ((∑ e, h (R e) k) / c) · W k j`: exchange the sums and distribute). Without
  finiteness the distributive step fails at the infinities, which is why the inputs are first written as reals.
-/
import Idealize.ShloMosaic.PureOps.Ideal.Laws

noncomputable section

namespace Cert.SageLaw

open Idealize.ShloMosaic

/-! ## Reals inside the extended reals -/

theorem coe_max (a b : ℝ) : ((max a b : ℝ) : EReal) = max (a : EReal) (b : EReal) :=
  EReal.coe_strictMono.monotone.map_max

theorem sum_coe {α : Type*} (s : Finset α) (f : α → ℝ) :
    ∑ a ∈ s, ((f a : ℝ) : EReal) = ((∑ a ∈ s, f a : ℝ) : EReal) := by
  classical
  refine Finset.induction_on s (by simp) fun a s ha ih => ?_
  rw [Finset.sum_insert ha, Finset.sum_insert ha, ih, EReal.coe_add]

/-- A product-sum of reals is the real product-sum. -/
theorem coe_dot {κ : Type*} [Fintype κ] (a b : κ → ℝ) :
    ∑ k, ((a k : ℝ) : EReal) * ((b k : ℝ) : EReal) = ((∑ k, a k * b k : ℝ) : EReal) := by
  rw [← sum_coe]
  exact Finset.sum_congr rfl fun k _ => (EReal.coe_mul _ _).symm

variable {ι ε κ η μ : Type} [Fintype κ] [Fintype η]
variable (S : ι → Finset ε) (R : ε → ι)

/-! ## The two programs on the extended reals -/

/-- The neighbourhood sum, accumulated from zero. -/
def agg (f : ι → EReal) (i : ι) : EReal := 0 + ∑ e ∈ S i, f (R e)

/-- The number of edges added into node `i`, accumulated from zero. -/
def cnt (i : ι) : EReal := 0 + ∑ _e ∈ S i, (1 : EReal)

/-- What a mean divides by. -/
def cmax (i : ι) : EReal := max (cnt S i) 1

section Programs

variable (x : ι → κ → EReal) (W1l : κ → η → EReal) (b1 : η → EReal) (W1r : κ → η → EReal)
  (W2l : η → μ → EReal) (b2 : μ → EReal) (W2r : η → μ → EReal)

/-- The reference's hidden layer: `relu ((mean x) · W1l + b1 + x · W1r)`. -/
def refHidden (i : ι) (k' : η) : EReal :=
  max (((∑ k, Ideal.div (agg S R (fun n => x n k) i) (cmax S i) * W1l k k') + b1 k') + ∑ k, x i k * W1r k k') 0

/-- The reference's output: `(mean h) · W2l + b2 + h · W2r`. -/
def refOut (i : ι) (j : μ) : EReal :=
  ((∑ k', Ideal.div (agg S R (fun n => refHidden S R x W1l b1 W1r n k') i) (cmax S i) * W2l k' j) + b2 j)
    + ∑ k', refHidden S R x W1l b1 W1r i k' * W2r k' j

/-- The kernel's reciprocal degree. -/
def kerInv (i : ι) : EReal := Ideal.div 1 (cmax S i)

/-- The kernel's hidden layer: `relu ((sum x · inv) · W1l + x · W1r + b1)`. -/
def kerHidden (i : ι) (k' : η) : EReal :=
  max (((∑ k, (agg S R (fun n => x n k) i * kerInv S i) * W1l k k') + ∑ k, x i k * W1r k k') + b1 k') 0

/-- The kernel's projected hidden rows `h · W`. -/
def kerProj (W : η → μ → EReal) (i : ι) (j : μ) : EReal := ∑ k', kerHidden S R x W1l b1 W1r i k' * W k' j

/-- The kernel's output: `sum (h · W2l) · inv + h · W2r + b2`. -/
def kerOut (i : ι) (j : μ) : EReal :=
  (agg S R (fun n => kerProj S R x W1l b1 W1r W2l n j) i * kerInv S i + kerProj S R x W1l b1 W1r W2r i j) + b2 j

end Programs

/-! ## Both over real inputs -/

theorem agg_coe (f : ι → ℝ) (i : ι) :
    agg S R (fun n => ((f n : ℝ) : EReal)) i = ((∑ e ∈ S i, f (R e) : ℝ) : EReal) := by
  show (0 : EReal) + ∑ e ∈ S i, ((f (R e) : ℝ) : EReal) = _
  rw [zero_add, sum_coe (S i) fun e => f (R e)]

/-- The divisor as a real. -/
def cR (i : ι) : ℝ := max (∑ _e ∈ S i, (1 : ℝ)) 1

theorem cR_ne_zero (i : ι) : cR S i ≠ 0 := by
  have h : (1 : ℝ) ≤ cR S i := le_max_right _ _
  intro h0; rw [h0] at h; exact absurd h (by norm_num)

theorem cmax_coe (i : ι) : cmax S i = ((cR S i : ℝ) : EReal) := by
  show max ((0 : EReal) + ∑ _e ∈ S i, (1 : EReal)) 1 = _
  rw [zero_add, ← EReal.coe_one, sum_coe (S i) fun _ => (1 : ℝ), ← coe_max]
  rfl

theorem kerInv_coe (i : ι) : kerInv S i = ((1 / cR S i : ℝ) : EReal) := by
  unfold kerInv
  rw [cmax_coe, Ideal.div_coe (cR_ne_zero S i), one_mul]

section Real

variable (x : ι → κ → ℝ) (W1l : κ → η → ℝ) (b1 : η → ℝ) (W1r : κ → η → ℝ)
  (W2l : η → μ → ℝ) (b2 : μ → ℝ) (W2r : η → μ → ℝ)

/-- The hidden layer over the reals. -/
def hR (i : ι) (k' : η) : ℝ :=
  max (((∑ k, ((∑ e ∈ S i, x (R e) k) / cR S i) * W1l k k') + b1 k') + ∑ k, x i k * W1r k k') 0

theorem refHidden_coe (i : ι) (k' : η) :
    refHidden S R (fun n k => (x n k : EReal)) (fun k k' => (W1l k k' : EReal)) (fun k' => (b1 k' : EReal))
      (fun k k' => (W1r k k' : EReal)) i k' = ((hR S R x W1l b1 W1r i k' : ℝ) : EReal) := by
  have hm : ∀ k, Ideal.div (agg S R (fun n => ((x n k : ℝ) : EReal)) i) (cmax S i)
      = (((∑ e ∈ S i, x (R e) k) / cR S i : ℝ) : EReal) := fun k => by
    rw [agg_coe, cmax_coe, Ideal.div_coe (cR_ne_zero S i), ← EReal.coe_mul, mul_one_div]
  unfold refHidden hR
  simp only [hm]
  rw [coe_dot, coe_dot, ← EReal.coe_add, ← EReal.coe_add, ← EReal.coe_zero, ← coe_max]

theorem kerHidden_coe (i : ι) (k' : η) :
    kerHidden S R (fun n k => (x n k : EReal)) (fun k k' => (W1l k k' : EReal)) (fun k' => (b1 k' : EReal))
      (fun k k' => (W1r k k' : EReal)) i k' = ((hR S R x W1l b1 W1r i k' : ℝ) : EReal) := by
  have hm : ∀ k, agg S R (fun n => ((x n k : ℝ) : EReal)) i * kerInv S i
      = (((∑ e ∈ S i, x (R e) k) / cR S i : ℝ) : EReal) := fun k => by
    rw [agg_coe, kerInv_coe, ← EReal.coe_mul, mul_one_div]
  unfold kerHidden hR
  simp only [hm]
  rw [coe_dot, coe_dot, ← EReal.coe_add, ← EReal.coe_add, ← EReal.coe_zero, ← coe_max, add_right_comm]

/-- Over the reals the projection commutes with the scaled neighbourhood sum. -/
theorem proj_agg (h : ι → η → ℝ) (W : η → μ → ℝ) (i : ι) (j : μ) :
    (∑ e ∈ S i, ∑ k', h (R e) k' * W k' j) * (1 / cR S i) = ∑ k', ((∑ e ∈ S i, h (R e) k') / cR S i) * W k' j := by
  rw [Finset.sum_comm, Finset.sum_mul]
  refine Finset.sum_congr rfl fun k' _ => ?_
  rw [← Finset.sum_mul]
  ring

/-- THE LAW: over real inputs the kernel's output is the reference's. -/
theorem kerOut_eq_refOut (i : ι) (j : μ) :
    kerOut S R (fun n k => (x n k : EReal)) (fun k k' => (W1l k k' : EReal)) (fun k' => (b1 k' : EReal))
      (fun k k' => (W1r k k' : EReal)) (fun k' j => (W2l k' j : EReal)) (fun j => (b2 j : EReal))
      (fun k' j => (W2r k' j : EReal)) i j
    = refOut S R (fun n k => (x n k : EReal)) (fun k k' => (W1l k k' : EReal)) (fun k' => (b1 k' : EReal))
      (fun k k' => (W1r k k' : EReal)) (fun k' j => (W2l k' j : EReal)) (fun j => (b2 j : EReal))
      (fun k' j => (W2r k' j : EReal)) i j := by
  have hp : ∀ (W : η → μ → ℝ) (n : ι) (j : μ),
      kerProj S R (fun n k => (x n k : EReal)) (fun k k' => (W1l k k' : EReal)) (fun k' => (b1 k' : EReal))
        (fun k k' => (W1r k k' : EReal)) (fun k' j => (W k' j : EReal)) n j
      = ((∑ k', hR S R x W1l b1 W1r n k' * W k' j : ℝ) : EReal) := fun W n j => by
    unfold kerProj
    simp only [kerHidden_coe]
    exact coe_dot _ _
  have hm : ∀ k', Ideal.div (agg S R (fun n => ((hR S R x W1l b1 W1r n k' : ℝ) : EReal)) i) (cmax S i)
      = (((∑ e ∈ S i, hR S R x W1l b1 W1r (R e) k') / cR S i : ℝ) : EReal) := fun k' => by
    rw [agg_coe, cmax_coe, Ideal.div_coe (cR_ne_zero S i), ← EReal.coe_mul, mul_one_div]
  unfold kerOut refOut
  simp only [hp, refHidden_coe, hm]
  rw [agg_coe, kerInv_coe, coe_dot, coe_dot]
  simp only [← EReal.coe_mul, ← EReal.coe_add]
  rw [proj_agg, add_right_comm]

end Real

/-! ## The law for finite extended reals -/

/-- A family of finite extended reals is a family of reals. -/
theorem exists_real₂ {α β : Type} (f : α → β → EReal) (h : ∀ a b, f a b ≠ ⊤ ∧ f a b ≠ ⊥) :
    ∃ g : α → β → ℝ, f = fun a b => (g a b : EReal) :=
  ⟨fun a b => (f a b).toReal, funext fun a => funext fun b => (EReal.coe_toReal (h a b).1 (h a b).2).symm⟩

theorem exists_real₁ {α : Type} (f : α → EReal) (h : ∀ a, f a ≠ ⊤ ∧ f a ≠ ⊥) :
    ∃ g : α → ℝ, f = fun a => (g a : EReal) :=
  ⟨fun a => (f a).toReal, funext fun a => (EReal.coe_toReal (h a).1 (h a).2).symm⟩

theorem kerOut_eq_refOut_of_finite (x : ι → κ → EReal) (W1l : κ → η → EReal) (b1 : η → EReal) (W1r : κ → η → EReal)
    (W2l : η → μ → EReal) (b2 : μ → EReal) (W2r : η → μ → EReal)
    (hx : ∀ a b, x a b ≠ ⊤ ∧ x a b ≠ ⊥) (hW1l : ∀ a b, W1l a b ≠ ⊤ ∧ W1l a b ≠ ⊥) (hb1 : ∀ a, b1 a ≠ ⊤ ∧ b1 a ≠ ⊥)
    (hW1r : ∀ a b, W1r a b ≠ ⊤ ∧ W1r a b ≠ ⊥) (hW2l : ∀ a b, W2l a b ≠ ⊤ ∧ W2l a b ≠ ⊥) (hb2 : ∀ a, b2 a ≠ ⊤ ∧ b2 a ≠ ⊥)
    (hW2r : ∀ a b, W2r a b ≠ ⊤ ∧ W2r a b ≠ ⊥) (i : ι) (j : μ) :
    kerOut S R x W1l b1 W1r W2l b2 W2r i j = refOut S R x W1l b1 W1r W2l b2 W2r i j := by
  obtain ⟨x, rfl⟩ := exists_real₂ x hx
  obtain ⟨W1l, rfl⟩ := exists_real₂ W1l hW1l
  obtain ⟨b1, rfl⟩ := exists_real₁ b1 hb1
  obtain ⟨W1r, rfl⟩ := exists_real₂ W1r hW1r
  obtain ⟨W2l, rfl⟩ := exists_real₂ W2l hW2l
  obtain ⟨b2, rfl⟩ := exists_real₁ b2 hb2
  obtain ⟨W2r, rfl⟩ := exists_real₂ W2r hW2r
  exact kerOut_eq_refOut S R x W1l b1 W1r W2l b2 W2r i j

end Cert.SageLaw

end
-- ==== Proof.KernelHostAt.lean ====
/-
  The kernel's host-side arrays at an index, in the vocabulary of the law.

  With `S = hits (colOf dst)` (the edges into a node) and `R = rowOf (colOf (wrap src))` (the node an edge reads): the
  edge count is `cnt S`, the reciprocal column is `kerInv S`, a neighbourhood sum of rows is `agg S R` column by column
  at either width, the packed result splits into its left and right halves, and a bias vector read as a one-row
  matrix is the vector.
-/
import proofs.«108149_j1090921693773_2_alg».proof.Proof.KernelHost
import proofs.«108149_j1090921693773_2_alg».proof.Proof.SageIdx
import proofs.«108149_j1090921693773_2_alg».proof.Proof.SageLaw
import proofs.«108149_j1090921693773_2_alg».proof.Proof.LibKeepdims
import Idealize.ShloMosaic.Lib.ValueLayout

noncomputable section

namespace Cert.KernelIdeal.HostAt

open Cert.KernelIdeal Cert.KernelIdeal.Facts₀ Cert.KernelIdeal.HostVal Cert.Sage Cert.SageLaw
open Idealize.ShloMosaic Idealize.ShloMosaic.ValueIdx

variable (src dst : IVec S800000 32)

theorem cntOf_apply (i : Fin 50000) : cntOf dst (ix1 i) = cnt (hits (colOf dst)) i := by
  unfold cntOf
  refine (scatterVec_apply Facts₀.scatter_S50000_S800000x1_S800000_n_0_0_1_wf _ (colOf dst) _ i).trans ?_
  show Ideal.ofBits .f32 0x00000000#32 + ∑ e ∈ hits (colOf dst) i, Ideal.ofBits .f32 0x3F800000#32 = _
  rw [ofBits_zero, ofBits_one]; rfl

theorem invColOf_apply (i : Fin 50000) (u : Fin 1) : invColOf dst (ix2 i u) = kerInv (hits (colOf dst)) i := by
  have hd : ∀ (a b : FVec Ideal S50000 .f32) (y : S50000.Idx), Host.divf a b y = Ideal.div (a y) (b y) := fun _ _ _ => rfl
  have hc : ∀ y : S50000.Idx, (broadcastInDim S50000 ![] bcast_S_S50000 (constant S_ .f32 0x3F800000#32)
      : FVec Ideal S50000 .f32) y = Ideal.ofBits .f32 0x3F800000#32 := fun _ => rfl
  unfold invColOf
  rw [Cert.LibKeepdims.shapeCast_a_a1_apply, hd, maximumf_apply, hc, cntOf_apply, ofBits_one]
  rfl

theorem sum128_apply (X : FVec Ideal S50000x128 .f32) (i : Fin 50000) (k : Fin 128) :
    sum128 src dst X (ix2 i k) = agg (hits (colOf dst)) (rowOf (colOf (wrap src))) (fun n => X (ix2 n k)) i := by
  unfold sum128
  refine (scatterRows_apply Facts₀.scatter_S50000x128_S800000x1_S800000x128_1_0_0_1_wf _ (colOf dst) _ i k).trans ?_
  show Ideal.ofBits .f32 0x00000000#32 + ∑ e ∈ hits (colOf dst) i,
    Host.gather gather_S50000x128_S800000x1_S800000x128_1_0_n_n_0_1_1128 X (colOf (wrap src)) (ix2 e k) = _
  rw [ofBits_zero]
  unfold agg
  exact congrArg (0 + ·) (Finset.sum_congr rfl fun e _ =>
    gatherRows_apply Facts₀.gather_S50000x128_S800000x1_S800000x128_1_0_n_n_0_1_1128_wf X (colOf (wrap src)) e k)

theorem sum64_apply (X : FVec Ideal S50000x64 .f32) (i : Fin 50000) (j : Fin 64) :
    sum64 src dst X (ix2 i j) = agg (hits (colOf dst)) (rowOf (colOf (wrap src))) (fun n => X (ix2 n j)) i := by
  unfold sum64
  refine (scatterRows_apply Facts₀.scatter_S50000x64_S800000x1_S800000x64_1_0_0_1_wf _ (colOf dst) _ i j).trans ?_
  show Ideal.ofBits .f32 0x00000000#32 + ∑ e ∈ hits (colOf dst) i,
    Host.gather gather_S50000x64_S800000x1_S800000x64_1_0_n_n_0_1_164 X (colOf (wrap src)) (ix2 e j) = _
  rw [ofBits_zero]
  unfold agg
  exact congrArg (0 + ·) (Finset.sum_congr rfl fun e _ =>
    gatherRows_apply Facts₀.gather_S50000x64_S800000x1_S800000x64_1_0_n_n_0_1_164_wf X (colOf (wrap src)) e j)

theorem leftHalf_apply (Y : FVec Ideal S50000x128 .f32) (i : Fin 50000) (j : Fin 64) :
    leftHalf Y (ix2 i j) = Y (ix2 i ⟨j.val, by have := j.isLt; omega⟩) :=
  slice2_axis1_apply 0 Y slices_S50000x128_S50000x64_0_0 i j ⟨j.val, by have := j.isLt; omega⟩ (Nat.zero_add _).symm

theorem rightHalf_apply (Y : FVec Ideal S50000x128 .f32) (i : Fin 50000) (j : Fin 64) :
    rightHalf Y (ix2 i j) = Y (ix2 i ⟨64 + j.val, by have := j.isLt; omega⟩) :=
  slice2_axis1_apply 64 Y slices_S50000x128_S50000x64_0_64 i j ⟨64 + j.val, by have := j.isLt; omega⟩ rfl

theorem row128_apply (b : FVec Ideal S128 .f32) (u : Fin 1) (k : Fin 128) : row128 b (ix2 u k) = b (ix1 k) :=
  shapeCast_a_1a_apply b shapeCasts_S128_S1x128 u k

theorem row64_apply (b : FVec Ideal S64 .f32) (u : Fin 1) (j : Fin 64) : row64 b (ix2 u j) = b (ix1 j) :=
  shapeCast_a_1a_apply b shapeCasts_S64_S1x64 u j

end Cert.KernelIdeal.HostAt

end
-- ==== Proof.KernelValue.lean ====
/-
  The idealized kernel's result array as the law's `kerOut` of the argument arrays.

  The result is what the second region leaves; the second region reads the neighbourhood sums of the left half of what
  the first region left, the reciprocal degrees, the right half, and the second bias; the first region reads the
  neighbourhood sums of `x`, the reciprocal degrees, `x`, and the weights and first bias. Index by index this is
  `kerOut` over the graph `edge_index` spells.
-/
import proofs.«108149_j1090921693773_2_alg».proof.Proof.KernelRegions
import proofs.«108149_j1090921693773_2_alg».proof.Proof.KernelHostAt

set_option maxRecDepth 16384

noncomputable section

namespace Cert.KernelIdeal.Value

open Cert.KernelIdeal Cert.KernelIdeal.Gen Cert.KernelIdeal.HostVal Cert.KernelIdeal.HostAt Cert.KernelIdeal.Regions
open Cert.Sage Cert.SageLaw
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The argument arrays. -/
abbrev A0 : FVec Ideal S50000x128 .f32 := m ((c.tc : Thread nD τ).loc main_arg0)
abbrev EI : IVec S2x800000 32 := m ((c.tc : Thread nD τ).loc main_arg1)
abbrev A2 : FVec Ideal S128x128 .f32 := m ((c.tc : Thread nD τ).loc main_arg2)
abbrev A3 : FVec Ideal S128 .f32 := m ((c.tc : Thread nD τ).loc main_arg3)
abbrev A4 : FVec Ideal S128x128 .f32 := m ((c.tc : Thread nD τ).loc main_arg4)
abbrev A5 : FVec Ideal S128x64 .f32 := m ((c.tc : Thread nD τ).loc main_arg5)
abbrev A6 : FVec Ideal S64 .f32 := m ((c.tc : Thread nD τ).loc main_arg6)
abbrev A7 : FVec Ideal S128x64 .f32 := m ((c.tc : Thread nD τ).loc main_arg7)

/-- What the first region leaves, of the argument arrays. -/
def packed : FVec Ideal S50000x128 .f32 :=
  G0 (sum128 (srcOf (EI m c)) (dstOf (EI m c)) (A0 m c)) (invColOf (dstOf (EI m c))) (A0 m c) (A2 m c)
    (row128 (A3 m c)) (A4 m c) (A5 m c) (A7 m c)

theorem W2_v24 : (W2 m ρ c (Proc.devRef .tc main_v24) : S50000x128.Idx → EReal) = packed m c := by
  have e22 : (V1 m ρ c main_v22 : S50000x128.Idx → EReal)
      = sum128 (srcOf (EI m c)) (dstOf (EI m c)) (A0 m c) := W1_v22 m ρ c
  have e12 : (V1 m ρ c main_v12 : S50000x1.Idx → EReal) = invColOf (dstOf (EI m c)) := W1_v12 m ρ c
  have e23 : (V1 m ρ c main_v23 : S1x128.Idx → EReal) = row128 (A3 m c) := W1_v23 m ρ c
  have e0 : V1 m ρ c main_arg0 = A0 m c := W1_arg0 m ρ c
  have e2 : V1 m ρ c main_arg2 = A2 m c := W1_arg2 m ρ c
  have e4 : V1 m ρ c main_arg4 = A4 m c := W1_arg4 m ρ c
  have e5 : V1 m ρ c main_arg5 = A5 m c := W1_arg5 m ρ c
  have e7 : V1 m ρ c main_arg7 = A7 m c := W1_arg7 m ρ c
  have h := (W2_arr m ρ c 8).trans (final0 (V1 m ρ) c)
  rw [e22, e12, e23, e0, e2, e4, e5, e7] at h
  exact h

/-- The result array, of the argument arrays. -/
theorem W4_v38 : (W4 m ρ c (Proc.devRef .tc main_v38) : S50000x64.Idx → EReal)
    = G1 (sum64 (srcOf (EI m c)) (dstOf (EI m c)) (leftHalf (packed m c))) (invColOf (dstOf (EI m c)))
        (rightHalf (packed m c)) (row64 (A6 m c)) := by
  have ev1 : (W2 m ρ c (Proc.devRef .tc main_v1) : S800000.Idx → BitVec 32) = srcOf (EI m c) :=
    (W2_of_ne m ρ c main_v1 (by decide)).trans (W1_v1 m ρ c)
  have ev3 : (W2 m ρ c (Proc.devRef .tc main_v3) : S800000.Idx → BitVec 32) = dstOf (EI m c) :=
    (W2_of_ne m ρ c main_v3 (by decide)).trans (W1_v3 m ρ c)
  have ea6 : W2 m ρ c (Proc.devRef .tc main_arg6) = A6 m c :=
    (W2_of_ne m ρ c main_arg6 (by decide)).trans (W1_arg6 m ρ c)
  have e36 : (V3 m ρ c main_v36 : S50000x64.Idx → EReal)
      = sum64 (srcOf (EI m c)) (dstOf (EI m c)) (leftHalf (packed m c)) := by
    refine (W3_v36 m ρ c).trans ?_
    rw [ev1, ev3, W2_v24]
  have e12 : (V3 m ρ c main_v12 : S50000x1.Idx → EReal) = invColOf (dstOf (EI m c)) :=
    (W3_v12 m ρ c).trans ((W2_arr m ρ c 1).trans (((dat0 (V1 m ρ) c).arrAt_in 1 rfl _).trans
      ((A_eq0 (V1 m ρ) c 1).trans (W1_v12 m ρ c))))
  have e26 : (V3 m ρ c main_v26 : S50000x64.Idx → EReal) = rightHalf (packed m c) := by
    refine (W3_v26 m ρ c).trans ?_
    rw [W2_v24]
  have e37 : (V3 m ρ c main_v37 : S1x64.Idx → EReal) = row64 (A6 m c) := by
    refine (W3_v37 m ρ c).trans ?_
    rw [ea6]
  have h := (W4_arr m ρ c 4).trans (final1 (V3 m ρ) c)
  rw [e36, e12, e26, e37] at h
  exact h

/-! ## Index by index -/

/-- The graph the kernel reads. -/
abbrev Sk := hits (colOf (dstOf (EI m c)))
abbrev Rk := rowOf (colOf (wrap (srcOf (EI m c))))

theorem hid_eq (n : Fin 50000) (k' : Fin 128) :
    hidA (sum128 (srcOf (EI m c)) (dstOf (EI m c)) (A0 m c)) (invColOf (dstOf (EI m c))) (A0 m c) (A2 m c)
        (row128 (A3 m c)) (A4 m c) n k'
      = kerHidden (Sk m c) (Rk m c) (fun n k => A0 m c (ix2 n k)) (fun k k' => A2 m c (ix2 k k'))
          (fun k' => A3 m c (ix1 k')) (fun k k' => A4 m c (ix2 k k')) n k' := by
  unfold hidA kerHidden
  simp only [sum128_apply, invColOf_apply, row128_apply]

theorem packed_left (n : Fin 50000) (j : Fin 64) :
    packed m c (ix2 n (⟨j.val, by have := j.isLt; omega⟩ : Fin 128))
      = kerProj (Sk m c) (Rk m c) (fun n k => A0 m c (ix2 n k)) (fun k k' => A2 m c (ix2 k k'))
          (fun k' => A3 m c (ix1 k')) (fun k k' => A4 m c (ix2 k k')) (fun k' j => A5 m c (ix2 k' j)) n j := by
  have hj := j.isLt
  unfold packed G0 kerProj
  rw [dif_pos (show ((ix2 n (⟨j.val, by omega⟩ : Fin 128) : S50000x128.Idx) 1).val < 64 from hj)]
  exact Finset.sum_congr rfl fun k' _ => by rw [hid_eq]

theorem packed_right (n : Fin 50000) (j : Fin 64) :
    packed m c (ix2 n (⟨64 + j.val, by have := j.isLt; omega⟩ : Fin 128))
      = kerProj (Sk m c) (Rk m c) (fun n k => A0 m c (ix2 n k)) (fun k k' => A2 m c (ix2 k k'))
          (fun k' => A3 m c (ix1 k')) (fun k k' => A4 m c (ix2 k k')) (fun k' j => A7 m c (ix2 k' j)) n j := by
  have hj := j.isLt
  unfold packed G0 kerProj
  rw [dif_neg (show ¬ ((ix2 n (⟨64 + j.val, by omega⟩ : Fin 128) : S50000x128.Idx) 1).val < 64 from by
    show ¬ (64 + j.val < 64); omega)]
  refine Finset.sum_congr rfl fun k' _ => ?_
  rw [hid_eq]
  exact congrArg (fun q : Fin 64 => _ * A7 m c (ix2 k' q)) (Fin.ext (by show 64 + j.val - 64 = j.val; omega))

/-- THE KERNEL'S VALUE at `(i, j)`. -/
theorem value_apply (i : Fin 50000) (j : Fin 64) :
    (W4 m ρ c (Proc.devRef .tc main_v38) : S50000x64.Idx → EReal) (ix2 i j)
      = kerOut (Sk m c) (Rk m c) (fun n k => A0 m c (ix2 n k)) (fun k k' => A2 m c (ix2 k k'))
          (fun k' => A3 m c (ix1 k')) (fun k k' => A4 m c (ix2 k k')) (fun k' j => A5 m c (ix2 k' j))
          (fun j => A6 m c (ix1 j)) (fun k' j => A7 m c (ix2 k' j)) i j := by
  rw [W4_v38]
  unfold G1 kerOut
  show (sum64 (srcOf (EI m c)) (dstOf (EI m c)) (leftHalf (packed m c)) (ix2 i j)
      * invColOf (dstOf (EI m c)) (ix2 i (0 : Fin 1)) + rightHalf (packed m c) (ix2 i j)) + row64 (A6 m c) (ix2 (0 : Fin 1) j) = _
  rw [sum64_apply, invColOf_apply, rightHalf_apply, row64_apply, packed_right]
  simp only [leftHalf_apply, packed_left]

end Cert.KernelIdeal.Value

end
-- ==== Proof.RefValue.lean ====
/-
  The reference's result at an index, in the vocabulary of the law.

  The reference's @main is read one operation at a time by the generated read-at-an-index lemmas; its four scatters and
  two gathers are read here. With `S = hits` of the destination column and `R = rowOf` of the (wrapped) source column,
  its edge count is `cnt S`, each neighbourhood sum is `agg S R` column by column, each mean divides by `cmax S`, and
  the two layers compose to `refHidden` and `refOut` of the argument arrays read by coordinates.
-/
import proofs.«108149_j1090921693773_2_alg».proof.Proof.Gen.ReferenceIdeal.Read
import proofs.«108149_j1090921693773_2_alg».proof.Proof.SageIdx
import proofs.«108149_j1090921693773_2_alg».proof.Proof.SageLaw

noncomputable section

namespace Cert.ReferenceIdeal.RefValue

open Cert.ReferenceIdeal Cert.ReferenceIdeal.Read Cert.Sage Cert.SageLaw
open Idealize.ShloMosaic Idealize.ShloMosaic.ValueIdx

variable (X : FVec Ideal S50000x128 .f32) (ei : IVec S2x800000 32) (W1l : FVec Ideal S128x128 .f32)
  (b1 : FVec Ideal S128 .f32) (W1r : FVec Ideal S128x128 .f32) (W2l : FVec Ideal S128x64 .f32)
  (b2 : FVec Ideal S64 .f32) (W2r : FVec Ideal S128x64 .f32)

/-- The destination column and the wrapped source column, as the reference computes them. -/
abbrev dcol : IVec S800000x1 32 := val_main_v12 (F := Ideal) ei
abbrev scol : IVec S800000x1 32 := val_main_v9 (F := Ideal) ei

/-! ## Layer 1 -/

theorem cnt_eq (i : Fin 50000) : val_main_v17 (F := Ideal) ei (ix1 i) = cnt (hits (dcol ei)) i := by
  unfold val_main_v17
  refine (scatterVec_apply Facts₀.scatter_S50000_S800000x1_S800000_n_0_0_1_wf _ (val_main_v16 (F := Ideal) ei) _ i).trans ?_
  show Ideal.ofBits .f32 0x00000000#32 + ∑ e ∈ hits (dcol ei) i, Ideal.ofBits .f32 0x3F800000#32 = _
  rw [ofBits_zero, ofBits_one]; rfl

theorem cmax_eq (i : Fin 50000) (k : Fin 128) : val_main_v21 (F := Ideal) ei (ix2 i k) = cmax (hits (dcol ei)) i := by
  have e : idx_main_v20 (idx_main_v21 (ix2 i k)) = ix1 i := funext fun a => by match a with | ⟨0, _⟩ => rfl
  rw [val_main_v21_apply, val_main_v20_apply, e, val_main_v19_apply, cnt_eq]
  show max (cnt (hits (dcol ei)) i) (Ideal.ofBits .f32 0x3F800000#32) = _
  rw [ofBits_one]; rfl

theorem sum1_eq (i : Fin 50000) (k : Fin 128) :
    val_main_v13 (F := Ideal) X ei (ix2 i k) = agg (hits (dcol ei)) (rowOf (scol ei)) (fun n => X (ix2 n k)) i := by
  unfold val_main_v13
  refine (scatterRows_apply Facts₀.scatter_S50000x128_S800000x1_S800000x128_1_0_0_1_wf _ (val_main_v12 (F := Ideal) ei) _ i k).trans ?_
  show Ideal.ofBits .f32 0x00000000#32 + ∑ e ∈ hits (dcol ei) i,
    Host.gather gather_S50000x128_S800000x1_S800000x128_1_0_n_n_0_1_1128 X (scol ei) (ix2 e k) = _
  rw [ofBits_zero]
  unfold agg
  exact congrArg (0 + ·) (Finset.sum_congr rfl fun e _ =>
    gatherRows_apply Facts₀.gather_S50000x128_S800000x1_S800000x128_1_0_n_n_0_1_1128_wf X (scol ei) e k)

theorem relu_zero (y : S50000x128.Idx) : val_main_call0_v0 (F := Ideal) y = 0 :=
  (show val_main_call0_v0 (F := Ideal) y = Ideal.ofBits .f32 0x00000000#32 from rfl).trans ofBits_zero

theorem hidden_eq (i : Fin 50000) (k' : Fin 128) :
    val_main_v29 (F := Ideal) X ei W1l b1 W1r (ix2 i k')
      = refHidden (hits (dcol ei)) (rowOf (scol ei)) (fun n k => X (ix2 n k)) (fun k k' => W1l (ix2 k k'))
          (fun k' => b1 (ix1 k')) (fun k k' => W1r (ix2 k k')) i k' := by
  have t1 : ∀ k : Fin 128, val_main_v22 (F := Ideal) X ei (lidx_main_v23 (ix2 i k') k) * W1l (ridx_main_v23 (ix2 i k') k)
      = Ideal.div (agg (hits (dcol ei)) (rowOf (scol ei)) (fun n => X (ix2 n k)) i) (cmax (hits (dcol ei)) i)
          * W1l (ix2 k k') := fun k => by
    have el : lidx_main_v23 (ix2 i k') k = ix2 i k := funext fun a => by
      match a with | ⟨0, _⟩ => rfl | ⟨1, _⟩ => rfl
    have er : ridx_main_v23 (ix2 i k') k = ix2 k k' := funext fun a => by
      match a with | ⟨0, _⟩ => rfl | ⟨1, _⟩ => rfl
    rw [el, er, val_main_v22_apply, sum1_eq, cmax_eq, Ideal.hostDivf_def]
  have t2 : ∀ k : Fin 128, X (lidx_main_v27 (ix2 i k') k) * W1r (ridx_main_v27 (ix2 i k') k)
      = X (ix2 i k) * W1r (ix2 k k') := fun k => by
    have el : lidx_main_v27 (ix2 i k') k = ix2 i k := funext fun a => by
      match a with | ⟨0, _⟩ => rfl | ⟨1, _⟩ => rfl
    have er : ridx_main_v27 (ix2 i k') k = ix2 k k' := funext fun a => by
      match a with | ⟨0, _⟩ => rfl | ⟨1, _⟩ => rfl
    rw [el, er]
  have eb : idx_main_v24 (idx_main_v25 (ix2 i k')) = ix1 k' := funext fun a => by match a with | ⟨0, _⟩ => rfl
  rw [val_main_v29_apply, val_main_v28_apply, val_main_v26_apply, val_main_v23_apply, val_main_v27_apply,
    val_main_v25_apply, val_main_v24_apply, eb, relu_zero]
  rw [Finset.sum_congr rfl (fun k _ => t1 k), Finset.sum_congr rfl (fun k _ => t2 k)]
  rw [Ideal.maximumf_def, Ideal.addf_def, Ideal.addf_def]
  unfold refHidden
  with_reducible rfl

/-! ## Layer 2 -/

theorem sum2_eq (i : Fin 50000) (k' : Fin 128) :
    val_main_v39 (F := Ideal) X ei W1l b1 W1r (ix2 i k')
      = agg (hits (dcol ei)) (rowOf (scol ei)) (fun n => val_main_v29 (F := Ideal) X ei W1l b1 W1r (ix2 n k')) i := by
  unfold val_main_v39
  refine (scatterRows_apply Facts₀.scatter_S50000x128_S800000x1_S800000x128_1_0_0_1_wf _ (val_main_v38 (F := Ideal) ei) _ i k').trans ?_
  show Ideal.ofBits .f32 0x00000000#32 + ∑ e ∈ hits (dcol ei) i,
    Host.gather gather_S50000x128_S800000x1_S800000x128_1_0_n_n_0_1_1128 (val_main_v29 (F := Ideal) X ei W1l b1 W1r) (scol ei) (ix2 e k') = _
  rw [ofBits_zero]
  unfold agg
  exact congrArg (0 + ·) (Finset.sum_congr rfl fun e _ =>
    gatherRows_apply Facts₀.gather_S50000x128_S800000x1_S800000x128_1_0_n_n_0_1_1128_wf _ (scol ei) e k')

theorem cmax2_eq (i : Fin 50000) (k : Fin 128) : val_main_v47 (F := Ideal) ei (ix2 i k) = cmax (hits (dcol ei)) i :=
  cmax_eq ei i k

/-- The reference's result at `(i, j)`. -/
theorem out_eq (i : Fin 50000) (j : Fin 64) :
    val_main_v54 (F := Ideal) X ei W1l b1 W1r W2l b2 W2r (ix2 i j)
      = refOut (hits (dcol ei)) (rowOf (scol ei)) (fun n k => X (ix2 n k)) (fun k k' => W1l (ix2 k k'))
          (fun k' => b1 (ix1 k')) (fun k k' => W1r (ix2 k k')) (fun k' j => W2l (ix2 k' j)) (fun j => b2 (ix1 j))
          (fun k' j => W2r (ix2 k' j)) i j := by
  have t1 : ∀ k : Fin 128, val_main_v48 (F := Ideal) X ei W1l b1 W1r (lidx_main_v49 (ix2 i j) k) * W2l (ridx_main_v49 (ix2 i j) k)
      = Ideal.div (agg (hits (dcol ei)) (rowOf (scol ei))
            (fun n => refHidden (hits (dcol ei)) (rowOf (scol ei)) (fun n k => X (ix2 n k)) (fun k k' => W1l (ix2 k k'))
              (fun k' => b1 (ix1 k')) (fun k k' => W1r (ix2 k k')) n k) i) (cmax (hits (dcol ei)) i)
          * W2l (ix2 k j) := fun k => by
    have el : lidx_main_v49 (ix2 i j) k = ix2 i k := funext fun a => by
      match a with | ⟨0, _⟩ => rfl | ⟨1, _⟩ => rfl
    have er : ridx_main_v49 (ix2 i j) k = ix2 k j := funext fun a => by
      match a with | ⟨0, _⟩ => rfl | ⟨1, _⟩ => rfl
    have hf : (fun n : Fin 50000 => val_main_v29 (F := Ideal) X ei W1l b1 W1r (ix2 n k))
        = fun n => refHidden (hits (dcol ei)) (rowOf (scol ei)) (fun n k => X (ix2 n k)) (fun k k' => W1l (ix2 k k'))
            (fun k' => b1 (ix1 k')) (fun k k' => W1r (ix2 k k')) n k := funext fun n => hidden_eq X ei W1l b1 W1r n k
    rw [el, er, val_main_v48_apply, sum2_eq, cmax2_eq, Ideal.hostDivf_def, hf]
  have t2 : ∀ k : Fin 128, val_main_v29 (F := Ideal) X ei W1l b1 W1r (lidx_main_v53 (ix2 i j) k) * W2r (ridx_main_v53 (ix2 i j) k)
      = refHidden (hits (dcol ei)) (rowOf (scol ei)) (fun n k => X (ix2 n k)) (fun k k' => W1l (ix2 k k'))
          (fun k' => b1 (ix1 k')) (fun k k' => W1r (ix2 k k')) i k * W2r (ix2 k j) := fun k => by
    have el : lidx_main_v53 (ix2 i j) k = ix2 i k := funext fun a => by
      match a with | ⟨0, _⟩ => rfl | ⟨1, _⟩ => rfl
    have er : ridx_main_v53 (ix2 i j) k = ix2 k j := funext fun a => by
      match a with | ⟨0, _⟩ => rfl | ⟨1, _⟩ => rfl
    rw [el, er, hidden_eq]
  have eb : idx_main_v50 (idx_main_v51 (ix2 i j)) = ix1 j := funext fun a => by match a with | ⟨0, _⟩ => rfl
  rw [val_main_v54_apply, val_main_v52_apply, val_main_v49_apply, val_main_v53_apply, val_main_v51_apply,
    val_main_v50_apply, eb]
  rw [Finset.sum_congr rfl (fun k _ => t1 k), Finset.sum_congr rfl (fun k _ => t2 k)]
  rw [Ideal.addf_def, Ideal.addf_def]
  unfold refOut
  with_reducible rfl

end Cert.ReferenceIdeal.RefValue

end
-- ==== Proof.Finite.lean ====
/-
  From the precondition to finiteness.

  The precondition says, of each float argument array, that `|x| < +∞` at every element (a comparison reduced by `and`
  over the whole array), all seven conjoined. On the extended reals `|x| = max x (-x)` and the word `0x7F800000` is `⊤`,
  so each element is neither `⊤` nor `⊥`: a real number.
-/
import proofs.«108149_j1090921693773_2_alg».proof.Defs
import proofs.«108149_j1090921693773_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs

instance : Subsingleton Cert.Pre_finite_inputs.S_.Idx := ⟨fun a b => funext fun d => d.elim0⟩

theorem ofBits_inf : Ideal.ofBits .f32 0x7F800000#32 = ⊤ := by simp [Ideal.ofBits, Ideal.ieee]

/-- An extended real whose absolute value is below `+∞` is finite. -/
theorem finite_of_lt (x : EReal) (h : Ideal.cmp .olt (max x (-x)) (Ideal.ofBits .f32 0x7F800000#32) = 1#1) :
    x ≠ ⊤ ∧ x ≠ ⊥ := by
  rw [ofBits_inf] at h
  have hlt : max x (-x) < ⊤ := by
    by_contra hn
    have h0 : Ideal.cmp .olt (max x (-x)) ⊤ = 0#1 := by
      unfold Ideal.cmp
      simp [hn]
    rw [h0] at h
    exact absurd h (by decide)
  constructor
  · rintro rfl; simp at hlt
  · rintro rfl; simp at hlt

/-- Under the precondition every element of every float argument is finite. -/
theorem finite_inputs (a0 : FVec Ideal S50000x128 .f32) (a1 : IVec S2x800000 32) (a2 : FVec Ideal S128x128 .f32)
    (a3 : FVec Ideal S128 .f32) (a4 : FVec Ideal S128x128 .f32) (a5 : FVec Ideal S128x64 .f32)
    (a6 : FVec Ideal S64 .f32) (a7 : FVec Ideal S128x64 .f32)
    (h : fn (F := Ideal) a0 a1 a2 a3 a4 a5 a6 a7 = fun _ => 1#1) :
    (∀ i, a0 i ≠ ⊤ ∧ a0 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) ∧ (∀ i, a6 i ≠ ⊤ ∧ a6 i ≠ ⊥)
      ∧ (∀ i, a7 i ≠ ⊤ ∧ a7 i ≠ ⊥) := by
  have h0 := congrFun h ValueIdx.ix0
  dsimp only [fn, fn_part1] at h0
  obtain ⟨h06, h7⟩ := IntOp.andi_eq_one.mp (show IntOp.andi _ _ = 1#1 from h0)
  obtain ⟨h05, h6⟩ := IntOp.andi_eq_one.mp (show IntOp.andi _ _ = 1#1 from h06)
  obtain ⟨h04, h5⟩ := IntOp.andi_eq_one.mp (show IntOp.andi _ _ = 1#1 from h05)
  obtain ⟨h03, h4⟩ := IntOp.andi_eq_one.mp (show IntOp.andi _ _ = 1#1 from h04)
  obtain ⟨h02, h3⟩ := IntOp.andi_eq_one.mp (show IntOp.andi _ _ = 1#1 from h03)
  obtain ⟨h00, h2⟩ := IntOp.andi_eq_one.mp (show IntOp.andi _ _ = 1#1 from h02)
  exact ⟨fun i => finite_of_lt (a0 i) (Host.reduce_andi_all _ _ _ _ ValueIdx.ix0 h00 i),
    fun i => finite_of_lt (a2 i) (Host.reduce_andi_all _ _ _ _ ValueIdx.ix0 h2 i),
    fun i => finite_of_lt (a3 i) (Host.reduce_andi_all _ _ _ _ ValueIdx.ix0 h3 i),
    fun i => finite_of_lt (a4 i) (Host.reduce_andi_all _ _ _ _ ValueIdx.ix0 h4 i),
    fun i => finite_of_lt (a5 i) (Host.reduce_andi_all _ _ _ _ ValueIdx.ix0 h5 i),
    fun i => finite_of_lt (a6 i) (Host.reduce_andi_all _ _ _ _ ValueIdx.ix0 h6 i),
    fun i => finite_of_lt (a7 i) (Host.reduce_andi_all _ _ _ _ ValueIdx.ix0 h7 i)⟩

end Cert.Finite

end
-- ==== Proof.Claims.lean ====
/-
  The five claims.

  The frames of the two kernel programs are the generated ones; the reference's frame is its generated run with the
  result dropped; the idealization rewrote nothing, so `preserves` is trivial. For `algebraic`: the kernel's run ends
  with its result array at `kerOut` of the argument arrays over the graph `edge_index` spells, the reference's at
  `refOut` of the same arrays over the same graph (the two programs build the destination column and the wrapped source
  column by the same operations), and under the precondition every float argument is finite, where the two agree.
-/
import proofs.«108149_j1090921693773_2_alg».proof.Defs
import proofs.«108149_j1090921693773_2_alg».proof.Proof.Gen.Kernel.Frame
import proofs.«108149_j1090921693773_2_alg».proof.Proof.Gen.KernelIdeal.Frame
import proofs.«108149_j1090921693773_2_alg».proof.Proof.Gen.ReferenceIdeal.Run
import proofs.«108149_j1090921693773_2_alg».proof.Proof.Gen.ReferenceIdeal.Read
import proofs.«108149_j1090921693773_2_alg».proof.Proof.Gen.Pre_finite_inputs
import proofs.«108149_j1090921693773_2_alg».proof.Proof.KernelRun
import proofs.«108149_j1090921693773_2_alg».proof.Proof.KernelValue
import proofs.«108149_j1090921693773_2_alg».proof.Proof.RefValue
import proofs.«108149_j1090921693773_2_alg».proof.Proof.Finite
import proofs.«108149_j1090921693773_2_alg».proof.Proof.SageLaw

set_option maxRecDepth 16384

noncomputable section

namespace Cert.Proof.Claims

open Idealize.ShloMosaic Idealize.ShloMosaic.TcCoe Idealize.ShloMosaic.ValueIdx Idealize.SL.Sem
open Cert.Sage Cert.SageLaw

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs build the destination column by the same operations. -/
theorem dcol_eq (ei : IVec Cert.KernelIdeal.S2x800000 32) :
    Cert.ReferenceIdeal.RefValue.dcol ei = Cert.KernelIdeal.HostVal.colOf (Cert.KernelIdeal.HostVal.dstOf ei) := rfl

/-- … and the wrapped source column. -/
theorem scol_eq (ei : IVec Cert.KernelIdeal.S2x800000 32) :
    Cert.ReferenceIdeal.RefValue.scol ei
      = Cert.KernelIdeal.HostVal.colOf (Cert.KernelIdeal.HostVal.wrap (Cert.KernelIdeal.HostVal.srcOf ei)) := rfl

theorem algebraic : Cert.algebraic_KernelIdeal_ReferenceIdeal := by
  intro m ρ m' ρ' hpre hagree
  refine ⟨fun c => Cert.KernelIdeal.Gen.W4 m ρ c (Proc.devRef .tc Cert.KernelIdeal.main_v38),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨f0, f2, f3, f4, f5, f6, f7⟩ := Cert.Finite.finite_inputs _ _ _ _ _ _ _ _ (hpre c)
  rw [Cert.ReferenceIdeal.Read.val_main_v54_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext y
  obtain ⟨i, j, rfl⟩ : ∃ (i : Fin 50000) (j : Fin 64), y = ix2 i j := ⟨y 0, y 1, eq_ix2 y⟩
  refine (Cert.ReferenceIdeal.RefValue.out_eq _ _ _ _ _ _ _ _ i j).trans ?_
  refine Eq.trans ?_ (Cert.KernelIdeal.Value.value_apply m ρ c i j).symm
  rw [dcol_eq, scol_eq]
  exact (kerOut_eq_refOut_of_finite _ _ _ _ _ _ _ _ _
    (fun a b => f0 (ix2 a b)) (fun a b => f2 (ix2 a b)) (fun a => f3 (ix1 a)) (fun a b => f4 (ix2 a b))
    (fun a b => f5 (ix2 a b)) (fun a => f6 (ix1 a)) (fun a b => f7 (ix2 a b)) i j).symm

end Cert.Proof.Claims

end
-- ==== Proof.lean ====
/- The proof of `Cert.Claim`: a two-layer mean-aggregation graph network (two pipelined kernels among host gathers and
   scatter-adds) against its plain reference, equal as extended reals when every float input is finite.
   The witnesses of the programs' stated facts come first; the five claims are in Proof/Claims.lean:
   the kernel's value is read off its run region by region (Proof/KernelRun, KernelHost, KernelBody, KernelOut,
   KernelRegions, KernelValue), the reference's off its operations (Proof/RefValue), both over one graph
   (Proof/SageIdx), and the law joining them is Proof/SageLaw.lean. -/
import proofs.«108149_j1090921693773_2_alg».proof.Defs
import proofs.«108149_j1090921693773_2_alg».proof.Proof.Gen.Kernel
import proofs.«108149_j1090921693773_2_alg».proof.Proof.Gen.Kernel.Skeleton
import proofs.«108149_j1090921693773_2_alg».proof.Proof.Gen.Kernel.Launch
import proofs.«108149_j1090921693773_2_alg».proof.Proof.Gen.Kernel.Points
import proofs.«108149_j1090921693773_2_alg».proof.Proof.Gen.Kernel.Frame
import proofs.«108149_j1090921693773_2_alg».proof.Proof.Gen.KernelIdeal
import proofs.«108149_j1090921693773_2_alg».proof.Proof.Gen.KernelIdeal.Skeleton
import proofs.«108149_j1090921693773_2_alg».proof.Proof.Gen.KernelIdeal.Launch
import proofs.«108149_j1090921693773_2_alg».proof.Proof.Gen.KernelIdeal.Points
import proofs.«108149_j1090921693773_2_alg».proof.Proof.Gen.KernelIdeal.Frame
import proofs.«108149_j1090921693773_2_alg».proof.Proof.Gen.ReferenceIdeal
import proofs.«108149_j1090921693773_2_alg».proof.Proof.Gen.Pre_finite_inputs
import proofs.«108149_j1090921693773_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
